-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200x512 : Shape := ⟨3, ![4, 200, 512]⟩
abbrev S4x100x512 : Shape := ⟨3, ![4, 100, 512]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S4x200x512 : S_.BroadcastsInDim S4x200x512 (![] : Fin 0 → Fin S4x200x512.rank)
  reducesTo_S4x200x512_S_d0_1_2 : S4x200x512.ReducesTo [0, 1, 2] S_
  h_S_ : 0 < S_.numel
  bcast_S_S4x100x512 : S_.BroadcastsInDim S4x100x512 (![] : Fin 0 → Fin S4x100x512.rank)
  reducesTo_S4x100x512_S_d0_1_2 : S4x100x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x1024 .f32) (main_arg5 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4x200x512 .f32) (main_arg1 : FVec F S4x100x512 .f32) (main_arg2 : FVec F S1024x1024 .f32) (main_arg3 : FVec F S1024 .f32) (main_arg4 : FVec F S512x1024 .f32) (main_arg5 : FVec F S512 .f32) : IVec S_ 1 :=
  let main_v0 : FVec F S4x200x512 .f32 := Host.absf main_arg0
  let main_cst : FVec F S_ .f32 := constant S_ .f32 0x7F800000#32
  let main_v1 : FVec F S4x200x512 .f32 := broadcastInDim S4x200x512 ![] bcast_S_S4x200x512 main_cst
  let main_v2 : IVec S4x200x512 1 := cmpf .olt main_v0 main_v1
  let main_c : IVec S_ 1 := constantI S_ 1 1#1
  let main_v3 : IVec S_ 1 := (fun x v => Host.reduce IntOp.andi x v reducesTo_S4x200x512_S_d0_1_2 h_S_) main_v2 main_c
  let main_v4 : FVec F S4x100x512 .f32 := Host.absf main_arg1
  let main_cst_0 : FVec F S_ .f32 := constant S_ .f32 0x7F800000#32
  let main_v5 : FVec F S4x100x512 .f32 := broadcastInDim S4x100x512 ![] bcast_S_S4x100x512 main_cst_0
  let main_v6 : IVec S4x100x512 1 := cmpf .olt main_v4 main_v5
  let main_c_1 : IVec S_ 1 := constantI S_ 1 1#1
  let main_v7 : IVec S_ 1 := (fun x v => Host.reduce IntOp.andi x v reducesTo_S4x100x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4x200x512 : Shape := ⟨3, ![4, 200, 512]⟩
abbrev S4x100x512 : Shape := ⟨3, ![4, 100, 512]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S1024x512 : Shape := ⟨2, ![1024, 512]⟩
abbrev S4x200x100x512 : Shape := ⟨4, ![4, 200, 100, 512]⟩
abbrev S1x40x512 : Shape := ⟨3, ![1, 40, 512]⟩
abbrev S1x100x512 : Shape := ⟨3, ![1, 100, 512]⟩
abbrev S1x40x100x512 : Shape := ⟨4, ![1, 40, 100, 512]⟩
abbrev S100x1024 : Shape := ⟨2, ![100, 1024]⟩
abbrev S100x512 : Shape := ⟨2, ![100, 512]⟩
abbrev S40x512 : Shape := ⟨2, ![40, 512]⟩
abbrev S40x1024 : Shape := ⟨2, ![40, 1024]⟩
abbrev S40x1x1024 : Shape := ⟨3, ![40, 1, 1024]⟩
abbrev S1x100x1024 : Shape := ⟨3, ![1, 100, 1024]⟩
abbrev S40x100x1024 : Shape := ⟨3, ![40, 100, 1024]⟩
abbrev S1x1x1024 : Shape := ⟨3, ![1, 1, 1024]⟩
abbrev S4000x1024 : Shape := ⟨2, ![4000, 1024]⟩
abbrev S4000x512 : Shape := ⟨2, ![4000, 512]⟩
abbrev S40x100x512 : Shape := ⟨3, ![40, 100, 512]⟩
abbrev S1x1x512 : Shape := ⟨3, ![1, 1, 512]⟩

abbrev nBuf : Space → Nat
  | .hbm => 15
  | .vmem => 12
  | .smem => 0
  | _ => 0

abbrev bufTy : (tb : Table) → Fin (tcTables nBuf tb) → BufTy
  | .hbm, ⟨0, _⟩ => ⟨S4x200x512, .f32⟩
  | .hbm, ⟨1, _⟩ => ⟨S4x100x512, .f32⟩
  | .hbm, ⟨2, _⟩ => ⟨S1024x1024, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1024x512, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1024x512, .f32⟩
  | .hbm, ⟨13, _⟩ => ⟨S1024x512, .bf16⟩
  | .hbm, ⟨14, _⟩ => ⟨S4x200x100x512, .f32⟩
  | .local _ .vmem, ⟨0, _⟩ => ⟨S1x40x512, .f32⟩
  | .local _ .vmem, ⟨1, _⟩ => ⟨S1x40x512, .f32⟩
  | .local _ .vmem, ⟨2, _⟩ => ⟨S1x100x512, .f32⟩
  | .local _ .vmem, ⟨3, _⟩ => ⟨S1x100x512, .f32⟩
  | .local _ .vmem, ⟨4, _⟩ => ⟨S512x1024, .bf16⟩
  | .local _ .vmem, ⟨5, _⟩ => ⟨S512x1024, .bf16⟩
  | .local _ .vmem, ⟨6, _⟩ => ⟨S1024, .f32⟩
  | .local _ .vmem, ⟨7, _⟩ => ⟨S1024x512, .bf16⟩
  | .local _ .vmem, ⟨8, _⟩ => ⟨S512, .f32⟩
  | .local _ .vmem, ⟨9, _⟩ => ⟨S1x40x100x512, .f32⟩
  | .local _ .vmem, ⟨10, _⟩ => ⟨S1x40x100x512, .f32⟩
  | .local _ .vmem, ⟨11, _⟩ => ⟨S100x1024, .f32⟩
  | _, _ => ⟨S4x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x100x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x40x100x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S1024x1024_S1024x512_0_0 : S1024x1024.Slices ![0, 0] S1024x512
  slices_S1024x1024_S1024x512_0_512 : S1024x1024.Slices ![0, 512] S1024x512
  transposes_S1024x512_S512x1024_1_0 : S1024x512.Transposes [1, 0] S512x1024
  bitsLt_bf16_f32 : FTy.bits .bf16 < FTy.bits .f32
  transposes_S512x1024_S1024x512_1_0 : S512x1024.Transposes [1, 0] S1024x512
  inb_S1x100x512_S1x100x512_0_0_0 : ∀ a, (![0, 0, 0] : Fin 3 → Nat) a + S1x100x512.size a ≤ S1x100x512.size a
  h_S1x100x512 : 0 < S1x100x512.numel
  shapeCasts_S1x100x512_S100x512 : S1x100x512.ShapeCasts S100x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S100x1024_S100x1024_0_0 : ∀ a, (![0, 0] : Fin 2 → Nat) a + S100x1024.size a ≤ S100x1024.size a
  h_S100x1024 : 0 < S100x1024.numel
  shapeCasts_S100x1024_S100x1024 : S100x1024.ShapeCasts S100x1024
  inb_S1x40x512_S1x40x512_0_0_0 : ∀ a, (![0, 0, 0] : Fin 3 → Nat) a + S1x40x512.size a ≤ S1x40x512.size a
  h_S1x40x512 : 0 < S1x40x512.numel
  shapeCasts_S1x40x512_S40x512 : S1x40x512.ShapeCasts S40x512
  inb_S1024_S1024_0 : ∀ a, (![0] : Fin 1 → Nat) a + S1024.size a ≤ S1024.size a
  h_S1024 : 0 < S1024.numel
  shapeCasts_S40x1024_S40x1x1024 : S40x1024.ShapeCasts S40x1x1024
  shapeCasts_S100x1024_S1x100x1024 : S100x1024.ShapeCasts S1x100x1024
  broadcasts_S40x1x1024_S40x100x1024 : S40x1x1024.Broadcasts S40x100x1024
  broadcasts_S1x100x1024_S40x100x1024 : S1x100x1024.Broadcasts S40x100x1024
  shapeCasts_S1024_S1x1x1024 : S1024.ShapeCasts S1x1x1024
  broadcasts_S1x1x1024_S40x100x1024 : S1x1x1024.Broadcasts S40x100x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S40x100x1024_S4000x1024 : S40x100x1024.ShapeCasts S4000x1024
  inb_S512_S512_0 : ∀ a, (![0] : Fin 1 → Nat) a + S512.size a ≤ S512.size a
  h_S512 : 0 < S512.numel
  shapeCasts_S4000x512_S40x100x512 : S4000x512.ShapeCasts S40x100x512
  shapeCasts_S512_S1x1x512 : S512.ShapeCasts S1x1x512
  broadcasts_S1x1x512_S40x100x512 : S1x1x512.Broadcasts S40x100x512
  inb_S1x40x100x512_S1x40x100x512_0_0_0_0 : ∀ a, (![0, 0, 0, 0] : Fin 4 → Nat) a + S1x40x100x512.size a ≤ S1x40x100x512.size a
  h_S1x40x100x512 : 0 < S1x40x100x512.numel
  shapeCasts_S1x40x100x512_S40x100x512 : S1x40x100x512.ShapeCasts S40x100x512
  shapeCasts_S40x100x512_S1x40x100x512 : S40x100x512.ShapeCasts S1x40x100x512
  dot_S100x512_S512x1024_S100x1024_1_0_0_1_n_n_wf : DotDims.WF S100x512 S512x1024 S100x1024 [1] [0] [0] [1] [] []
  dot_S40x512_S512x1024_S40x1024_1_0_0_1_n_n_wf : DotDims.WF S40x512 S512x1024 S40x1024 [1] [0] [0] [1] [] []
  dot_S4000x1024_S1024x512_S4000x512_1_0_0_1_n_n_wf : DotDims.WF S4000x1024 S1024x512 S4000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S4x200x512.size a
  hwx0_0 : ∀ i : grid0.Coords, EltTy.bits .f32 = 32 ∨ (Rect.block (s := S4x200x512) S1x40x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x512.size a ≤ S4x100x512.size a
  hwx0_1 : ∀ i : grid0.Coords, EltTy.bits .f32 = 32 ∨ (Rect.block (s := S4x100x512) S1x100x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x40x100x512.size a ≤ S4x200x100x512.size a
  hwx0_7 : ∀ i : grid0.Coords, EltTy.bits .f32 = 32 ∨ (Rect.block (s := S4x200x100x512) S1x40x100x512.size (cc0_transform_7 i) (hinb0_7 i)).WholeWords (EltTy.packing .f32)

variable [Facts₀]

def dot_S100x512_S512x1024_S100x1024_1_0_0_1_n_n : DotDims S100x512 S512x1024 S100x1024 where
  lhsContracting := [1]
  rhsContracting := [0]
  lhsNonContracting := [0]
  rhsNonContracting := [1]
  lhsBatch := []
  rhsBatch := []
  wf := dot_S100x512_S512x1024_S100x1024_1_0_0_1_n_n_wf
def dot_S40x512_S512x1024_S40x1024_1_0_0_1_n_n : DotDims S40x512 S512x1024 S40x1024 where
  lhsContracting := [1]
  rhsContracting := [0]
  lhsNonContracting := [0]
  rhsNonContracting := [1]
  lhsBatch := []
  rhsBatch := []
  wf := dot_S40x512_S512x1024_S40x1024_1_0_0_1_n_n_wf
def dot_S4000x1024_S1024x512_S4000x512_1_0_0_1_n_n : DotDims S4000x1024 S1024x512 S4000x512 where
  lhsContracting := [1]
  rhsContracting := [0]
  lhsNonContracting := [0]
  rhsNonContracting := [1]
  lhsBatch := []
  rhsBatch := []
  wf := dot_S4000x1024_S1024x512_S4000x512_1_0_0_1_n_n_wf

abbrev win0_0 : Pipeline.Window sig grid0 :=
  Pipeline.Window.ofSpec (Memref.whole main_arg0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x100x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x40x100x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x200x512 : Shape := ⟨3, ![4, 200, 512]⟩
abbrev S4x100x512 : Shape := ⟨3, ![4, 100, 512]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S1024x512 : Shape := ⟨2, ![1024, 512]⟩
abbrev S4x200x1024 : Shape := ⟨3, ![4, 200, 1024]⟩
abbrev S4x100x1024 : Shape := ⟨3, ![4, 100, 1024]⟩
abbrev S4x200x1x1024 : Shape := ⟨4, ![4, 200, 1, 1024]⟩
abbrev S4x1x100x1024 : Shape := ⟨4, ![4, 1, 100, 1024]⟩
abbrev S4x200x100x1024 : Shape := ⟨4, ![4, 200, 100, 1024]⟩
abbrev S1x1x1x1024 : Shape := ⟨4, ![1, 1, 1, 1024]⟩
abbrev S4x200x100x512 : Shape := ⟨4, ![4, 200, 100, 512]⟩
abbrev S1x1x1x512 : Shape := ⟨4, ![1, 1, 1, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x200x512, .f32⟩
  | .hbm, ⟨1, _⟩ => ⟨S4x100x512, .f32⟩
  | .hbm, ⟨2, _⟩ => ⟨S1024x1024, .f32⟩
  | .hbm, ⟨3, _⟩ => ⟨S1024, .f32⟩
  | .hbm, ⟨4, _⟩ => ⟨S512x1024, .f32⟩
  | .hbm, ⟨5, _⟩ => ⟨S512, .f32⟩
  | .hbm, ⟨6, _⟩ => ⟨S1024x512, .f32⟩
  | .hbm, ⟨7, _⟩ => ⟨S1024x512, .f32⟩
  | .hbm, ⟨8, _⟩ => ⟨S4x200x1024, .f32⟩
  | .hbm, ⟨9, _⟩ => ⟨S4x100x1024, .f32⟩
  | .hbm, ⟨10, _⟩ => ⟨S4x200x1x1024, .f32⟩
  | .hbm, ⟨11, _⟩ => ⟨S4x1x100x1024, .f32⟩
  | .hbm, ⟨12, _⟩ => ⟨S4x200x100x1024, .f32⟩
  | .hbm, ⟨13, _⟩ => ⟨S4x200x100x1024, .f32⟩
  | .hbm, ⟨14, _⟩ => ⟨S4x200x100x1024, .f32⟩
  | .hbm, ⟨15, _⟩ => ⟨S1x1x1x1024, .f32⟩
  | .hbm, ⟨16, _⟩ => ⟨S4x200x100x1024, .f32⟩
  | .hbm, ⟨17, _⟩ => ⟨S4x200x100x1024, .f32⟩
  | .hbm, ⟨18, _⟩ => ⟨S4x200x100x1024, .f32⟩
  | .hbm, ⟨19, _⟩ => ⟨S4x200x100x512, .f32⟩
  | .hbm, ⟨20, _⟩ => ⟨S1x1x1x512, .f32⟩
  | .hbm, ⟨21, _⟩ => ⟨S4x200x100x512, .f32⟩
  | .hbm, ⟨22, _⟩ => ⟨S4x200x100x512, .f32⟩
  | _, _ => ⟨S4x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x200x1024_S4x200x1x1024_0_1_3 : S4x200x1024.BroadcastsInDim S4x200x1x1024 (![0, 1, 3] : Fin 3 → Fin S4x200x1x1024.rank)
  bcast_S4x100x1024_S4x1x100x1024_0_2_3 : S4x100x1024.BroadcastsInDim S4x1x100x1024 (![0, 2, 3] : Fin 3 → Fin S4x1x100x1024.rank)
  bcast_S4x200x1x1024_S4x200x100x1024_0_1_2_3 : S4x200x1x1024.BroadcastsInDim S4x200x100x1024 (![0, 1, 2, 3] : Fin 4 → Fin S4x200x100x1024.rank)
  bcast_S4x1x100x1024_S4x200x100x1024_0_1_2_3 : S4x1x100x1024.BroadcastsInDim S4x200x100x1024 (![0, 1, 2, 3] : Fin 4 → Fin S4x200x100x1024.rank)
  bcast_S1024_S1x1x1x1024_3 : S1024.BroadcastsInDim S1x1x1x1024 (![3] : Fin 1 → Fin S1x1x1x1024.rank)
  bcast_S1x1x1x1024_S4x200x100x1024_0_1_2_3 : S1x1x1x1024.BroadcastsInDim S4x200x100x1024 (![0, 1, 2, 3] : Fin 4 → Fin S4x200x100x1024.rank)
  bcast_S512_S1x1x1x512_3 : S512.BroadcastsInDim S1x1x1x512 (![3] : Fin 1 → Fin S1x1x1x512.rank)
  bcast_S1x1x1x512_S4x200x100x512_0_1_2_3 : S1x1x1x512.BroadcastsInDim S4x200x100x512 (![0, 1, 2, 3] : Fin 4 → Fin S4x200x100x512.rank)
  dot_S4x200x512_S1024x512_S4x200x1024_2_1_01_0_n_n_wf : DotDims.WF S4x200x512 S1024x512 S4x200x1024 [2] [1] [0, 1] [0] [] []
  dot_S4x100x512_S1024x512_S4x100x1024_2_1_01_0_n_n_wf : DotDims.WF S4x100x512 S1024x512 S4x100x1024 [2] [1] [0, 1] [0] [] []
  dot_S4x200x100x1024_S512x1024_S4x200x100x512_3_1_012_0_n_n_wf : DotDims.WF S4x200x100x1024 S512x1024 S4x200x100x512 [3] [1] [0, 1, 2] [0] [] []

variable [Facts₀]

def dot_S4x200x512_S1024x512_S4x200x1024_2_1_01_0_n_n : DotDims S4x200x512 S1024x512 S4x200x1024 where
  lhsContracting := [2]
  rhsContracting := [1]
  lhsNonContracting := [0, 1]
  rhsNonContracting := [0]
  lhsBatch := []
  rhsBatch := []
  wf := dot_S4x200x512_S1024x512_S4x200x1024_2_1_01_0_n_n_wf
def dot_S4x100x512_S1024x512_S4x100x1024_2_1_01_0_n_n : DotDims S4x100x512 S1024x512 S4x100x1024 where
  lhsContracting := [2]
  rhsContracting := [1]
  lhsNonContracting := [0, 1]
  rhsNonContracting := [0]
  lhsBatch := []
  rhsBatch := []
  wf := dot_S4x100x512_S1024x512_S4x100x1024_2_1_01_0_n_n_wf
def dot_S4x200x100x1024_S512x1024_S4x200x100x512_3_1_012_0_n_n : DotDims S4x200x100x1024 S512x1024 S4x200x100x512 where
  lhsContracting := [3]
  rhsContracting := [1]
  lhsNonContracting := [0, 1, 2]
  rhsNonContracting := [0]
  lhsBatch := []
  rhsBatch := []
  wf := dot_S4x200x100x1024_S512x1024_S4x200x100x512_3_1_012_0_n_n_wf

class Facts : Prop extends Facts₀ where

variable [Facts]
-- ==== Proof.Spec.lean ====
/-
  The joint network, as one function of its six argument arrays.

  With enc : [4, 200, 512], dec : [4, 100, 512], W1 : [1024, 1024], b1 : [1024], W2 : [512, 1024], b2 : [512],
  the result at (b, t, u, o) is

      (∑ h, tanh ((∑ k, enc[b,t,k] · W1[h,k]) + (∑ k, dec[b,u,k] · W1[h,512+k]) + b1[h]) · W2[o,h]) + b2[o]

  over the extended reals: the first layer applied to the concatenation of an encoder row and a decoder row, split into
  the two halves of W1's columns, then tanh, then the second layer. The sums are plain finite sums; nothing here
  needs an entry to be finite.
-/
import Idealize.ShloMosaic.PureOps.Ideal
import Idealize.ShloMosaic.Lib.ValueIdx

noncomputable section

namespace Cert.Joint

open Idealize.ShloMosaic Idealize.ShloMosaic.ValueIdx

abbrev SEnc : Shape := ⟨3, ![4, 200, 512]⟩
abbrev SDec : Shape := ⟨3, ![4, 100, 512]⟩
abbrev SW1 : Shape := ⟨2, ![1024, 1024]⟩
abbrev SB1 : Shape := ⟨1, ![1024]⟩
abbrev SW2 : Shape := ⟨2, ![512, 1024]⟩
abbrev SB2 : Shape := ⟨1, ![512]⟩
abbrev SOut : Shape := ⟨4, ![4, 200, 100, 512]⟩

/-- Column `k` of W1's first half (the encoder's columns). -/
def lo (k : Fin 512) : Fin 1024 := ⟨k.val, by have := k.isLt; omega⟩
/-- Column `512 + k` of W1: its second half (the decoder's columns). -/
def hi (k : Fin 512) : Fin 1024 := ⟨512 + k.val, by have := k.isLt; omega⟩

/-- The encoder row (b, t) through the first half of W1's row `h`. -/
def encH (enc : SEnc.Idx → EReal) (W1 : SW1.Idx → EReal) (b : Fin 4) (t : Fin 200) (h : Fin 1024) : EReal :=
  ∑ k : Fin 512, enc (ix3 b t k) * W1 (ix2 h (lo k))

/-- The decoder row (b, u) through the second half of W1's row `h`. -/
def decH (dec : SDec.Idx → EReal) (W1 : SW1.Idx → EReal) (b : Fin 4) (u : Fin 100) (h : Fin 1024) : EReal :=
  ∑ k : Fin 512, dec (ix3 b u k) * W1 (ix2 h (hi k))

/-- The hidden activation at (b, t, u, h). -/
def hid (enc : SEnc.Idx → EReal) (dec : SDec.Idx → EReal) (W1 : SW1.Idx → EReal) (b1 : SB1.Idx → EReal)
    (b : Fin 4) (t : Fin 200) (u : Fin 100) (h : Fin 1024) : EReal :=
  Ideal.tanh ((encH enc W1 b t h + decH dec W1 b u h) + b1 (ix1 h))

/-- The result at explicit coordinates. -/
def out (enc : SEnc.Idx → EReal) (dec : SDec.Idx → EReal) (W1 : SW1.Idx → EReal) (b1 : SB1.Idx → EReal)
    (W2 : SW2.Idx → EReal) (b2 : SB2.Idx → EReal) (b : Fin 4) (t : Fin 200) (u : Fin 100) (o : Fin 512) : EReal :=
  (∑ h : Fin 1024, hid enc dec W1 b1 b t u h * W2 (ix2 o h)) + b2 (ix1 o)

/-- The result array. -/
def G (enc : SEnc.Idx → EReal) (dec : SDec.Idx → EReal) (W1 : SW1.Idx → EReal) (b1 : SB1.Idx → EReal)
    (W2 : SW2.Idx → EReal) (b2 : SB2.Idx → EReal) : SOut.Idx → EReal :=
  fun i => out enc dec W1 b1 W2 b2 (i 0) (i 1) (i 2) (i 3)

theorem G_ix4 (enc : SEnc.Idx → EReal) (dec : SDec.Idx → EReal) (W1 : SW1.Idx → EReal) (b1 : SB1.Idx → EReal)
    (W2 : SW2.Idx → EReal) (b2 : SB2.Idx → EReal) (b : Fin 4) (t : Fin 200) (u : Fin 100) (o : Fin 512) :
    G enc dec W1 b1 W2 b2 (ix4 b t u o) = out enc dec W1 b1 W2 b2 b t u o := rfl

end Cert.Joint

end
-- ==== Proof.RefG.lean ====
import proofs.«143311_j16784732193240_1_alg».proof.Proof.Gen.ReferenceIdeal.Read
import proofs.«143311_j16784732193240_1_alg».proof.Proof.Spec

/-
  The reference program computes the joint network of the specification.

  Stage by stage, at explicit coordinates: the two slices of W1 are its two column halves; the two first-layer
  contractions are the encoder and decoder halves of the first layer; the broadcasts read those at (b, t, h) and
  (b, u, h); the two additions and tanh give the hidden activation; the last contraction and the bias give the result.
-/

noncomputable section
namespace Cert.Joint.Ref
open Idealize.ShloMosaic Idealize.ShloMosaic.ValueIdx Cert.ReferenceIdeal Cert.ReferenceIdeal.Gen
open Cert.ReferenceIdeal.Read

/-- The first slice of W1 is its columns 0 … 511: entry (h, k) is W1[h, k]. -/
theorem a_v0_at (x2 : (⟨S1024x1024, .f32⟩ : BufTy).Contents (Elt Ideal)) (h : Fin 1024) (k : Fin 512) :
    val_main_v0 (F := Ideal) x2 (ix2 h k) = x2 (ix2 h (lo k)) :=
  (val_main_v0_apply (F := Ideal) x2 (ix2 h k)).trans
    (congrArg x2 (funext fun a => Fin.ext (by match a with | ⟨0, _⟩ => rfl | ⟨1, _⟩ => rfl)))

/-- The second slice of W1 is its columns 512 … 1023: entry (h, k) is W1[h, 512 + k]. -/
theorem a_v1_at (x2 : (⟨S1024x1024, .f32⟩ : BufTy).Contents (Elt Ideal)) (h : Fin 1024) (k : Fin 512) :
    val_main_v1 (F := Ideal) x2 (ix2 h k) = x2 (ix2 h (hi k)) :=
  (val_main_v1_apply (F := Ideal) x2 (ix2 h k)).trans
    (congrArg x2 (funext fun a => Fin.ext (by match a with | ⟨0, _⟩ => rfl | ⟨1, _⟩ => rfl)))

/-- The encoder contraction at (b, t, h) is the encoder half of the first layer. -/
theorem a_v2_at (x0 : (⟨S4x200x512, .f32⟩ : BufTy).Contents (Elt Ideal)) (x2 : (⟨S1024x1024, .f32⟩ : BufTy).Contents (Elt Ideal))
    (b : Fin 4) (t : Fin 200) (h : Fin 1024) :
    val_main_v2 (F := Ideal) x0 x2 (ix3 b t h) = encH x0 x2 b t h := by
  refine (val_main_v2_apply x0 x2 (ix3 b t h)).trans ?_
  refine Finset.sum_congr rfl fun k _ => ?_
  have el : lidx_main_v2 (ix3 b t h) k = ix3 b t k :=
    funext fun a => Fin.ext (by match a with | ⟨0, _⟩ => rfl | ⟨1, _⟩ => rfl | ⟨2, _⟩ => rfl)
  have er : ridx_main_v2 (ix3 b t h) k = ix2 h k :=
    funext fun a => Fin.ext (by match a with | ⟨0, _⟩ => rfl | ⟨1, _⟩ => rfl)
  exact congrArg₂ (fun (p q : EReal) => p * q) (congrArg x0 el)
    ((congrArg (val_main_v0 (F := Ideal) x2) er).trans (a_v0_at x2 h k))

/-- The decoder contraction at (b, u, h) is the decoder half of the first layer. -/
theorem a_v3_at (x1 : (⟨S4x100x512, .f32⟩ : BufTy).Contents (Elt Ideal)) (x2 : (⟨S1024x1024, .f32⟩ : BufTy).Contents (Elt Ideal))
    (b : Fin 4) (u : Fin 100) (h : Fin 1024) :
    val_main_v3 (F := Ideal) x1 x2 (ix3 b u h) = decH x1 x2 b u h := by
  refine (val_main_v3_apply x1 x2 (ix3 b u h)).trans ?_
  refine Finset.sum_congr rfl fun k _ => ?_
  have el : lidx_main_v3 (ix3 b u h) k = ix3 b u k :=
    funext fun a => Fin.ext (by match a with | ⟨0, _⟩ => rfl | ⟨1, _⟩ => rfl | ⟨2, _⟩ => rfl)
  have er : ridx_main_v3 (ix3 b u h) k = ix2 h k :=
    funext fun a => Fin.ext (by match a with | ⟨0, _⟩ => rfl | ⟨1, _⟩ => rfl)
  exact congrArg₂ (fun (p q : EReal) => p * q) (congrArg x1 el)
    ((congrArg (val_main_v1 (F := Ideal) x2) er).trans (a_v1_at x2 h k))

/-- The encoder half broadcast along the decoder axis: at (b, t, u, h) it is the encoder half at (b, t, h). -/
theorem a_v6_at (x0 : (⟨S4x200x512, .f32⟩ : BufTy).Contents (Elt Ideal)) (x2 : (⟨S1024x1024, .f32⟩ : BufTy).Contents (Elt Ideal))
    (b : Fin 4) (t : Fin 200) (u : Fin 100) (h : Fin 1024) :
    val_main_v6 (F := Ideal) x0 x2 (ix4 b t u h) = encH x0 x2 b t h :=
  (val_main_v6_apply (F := Ideal) x0 x2 (ix4 b t u h)).trans
    ((val_main_v4_apply (F := Ideal) x0 x2 _).trans
      ((congrArg (val_main_v2 (F := Ideal) x0 x2)
        (funext fun a => Fin.ext (by match a with | ⟨0, _⟩ => rfl | ⟨1, _⟩ => rfl | ⟨2, _⟩ => rfl))).trans
        (a_v2_at x0 x2 b t h)))

/-- The decoder half broadcast along the encoder axis: at (b, t, u, h) it is the decoder half at (b, u, h). -/
theorem a_v7_at (x1 : (⟨S4x100x512, .f32⟩ : BufTy).Contents (Elt Ideal)) (x2 : (⟨S1024x1024, .f32⟩ : BufTy).Contents (Elt Ideal))
    (b : Fin 4) (t : Fin 200) (u : Fin 100) (h : Fin 1024) :
    val_main_v7 (F := Ideal) x1 x2 (ix4 b t u h) = decH x1 x2 b u h :=
  (val_main_v7_apply (F := Ideal) x1 x2 (ix4 b t u h)).trans
    ((val_main_v5_apply (F := Ideal) x1 x2 _).trans
      ((congrArg (val_main_v3 (F := Ideal) x1 x2)
        (funext fun a => Fin.ext (by match a with | ⟨0, _⟩ => rfl | ⟨1, _⟩ => rfl | ⟨2, _⟩ => rfl))).trans
        (a_v3_at x1 x2 b u h)))

/-- The first bias broadcast to the hidden array: at (b, t, u, h) it is b1[h]. -/
theorem a_v10_at (x3 : (⟨S1024, .f32⟩ : BufTy).Contents (Elt Ideal)) (b : Fin 4) (t : Fin 200) (u : Fin 100) (h : Fin 1024) :
    val_main_v10 (F := Ideal) x3 (ix4 b t u h) = x3 (ix1 h) :=
  (val_main_v10_apply (F := Ideal) x3 (ix4 b t u h)).trans
    ((val_main_v9_apply (F := Ideal) x3 _).trans
      (congrArg x3 (funext fun a => Fin.ext (by match a with | ⟨0, _⟩ => rfl))))

/-- The hidden activation: tanh of the two halves and the bias. -/
theorem a_v12_at (x0 : (⟨S4x200x512, .f32⟩ : BufTy).Contents (Elt Ideal)) (x1 : (⟨S4x100x512, .f32⟩ : BufTy).Contents (Elt Ideal))
    (x2 : (⟨S1024x1024, .f32⟩ : BufTy).Contents (Elt Ideal)) (x3 : (⟨S1024, .f32⟩ : BufTy).Contents (Elt Ideal))
    (b : Fin 4) (t : Fin 200) (u : Fin 100) (h : Fin 1024) :
    val_main_v12 (F := Ideal) x0 x1 x2 x3 (ix4 b t u h) = hid x0 x1 x2 x3 b t u h := by
  show Ideal.tanh ((val_main_v6 (F := Ideal) x0 x2 (ix4 b t u h) + val_main_v7 (F := Ideal) x1 x2 (ix4 b t u h))
      + val_main_v10 (F := Ideal) x3 (ix4 b t u h)) = _
  rw [a_v6_at, a_v7_at, a_v10_at]
  rfl

/-- The second-layer contraction at (b, t, u, o). -/
theorem a_v13_at (x0 : (⟨S4x200x512, .f32⟩ : BufTy).Contents (Elt Ideal)) (x1 : (⟨S4x100x512, .f32⟩ : BufTy).Contents (Elt Ideal))
    (x2 : (⟨S1024x1024, .f32⟩ : BufTy).Contents (Elt Ideal)) (x3 : (⟨S1024, .f32⟩ : BufTy).Contents (Elt Ideal))
    (x4 : (⟨S512x1024, .f32⟩ : BufTy).Contents (Elt Ideal))
    (b : Fin 4) (t : Fin 200) (u : Fin 100) (o : Fin 512) :
    val_main_v13 (F := Ideal) x0 x1 x2 x3 x4 (ix4 b t u o)
      = ∑ h : Fin 1024, hid x0 x1 x2 x3 b t u h * x4 (ix2 o h) := by
  refine (val_main_v13_apply x0 x1 x2 x3 x4 (ix4 b t u o)).trans ?_
  refine Finset.sum_congr rfl fun h _ => ?_
  have el : lidx_main_v13 (ix4 b t u o) h = ix4 b t u h :=
    funext fun a => Fin.ext (by match a with | ⟨0, _⟩ => rfl | ⟨1, _⟩ => rfl | ⟨2, _⟩ => rfl | ⟨3, _⟩ => rfl)
  have er : ridx_main_v13 (ix4 b t u o) h = ix2 o h :=
    funext fun a => Fin.ext (by match a with | ⟨0, _⟩ => rfl | ⟨1, _⟩ => rfl)
  exact congrArg₂ (fun (p q : EReal) => p * q)
    ((congrArg (val_main_v12 (F := Ideal) x0 x1 x2 x3) el).trans (a_v12_at x0 x1 x2 x3 b t u h)) (congrArg x4 er)

/-- The second bias broadcast to the result array: at (b, t, u, o) it is b2[o]. -/
theorem a_v15_at (x5 : (⟨S512, .f32⟩ : BufTy).Contents (Elt Ideal)) (b : Fin 4) (t : Fin 200) (u : Fin 100) (o : Fin 512) :
    val_main_v15 (F := Ideal) x5 (ix4 b t u o) = x5 (ix1 o) :=
  (val_main_v15_apply (F := Ideal) x5 (ix4 b t u o)).trans
    ((val_main_v14_apply (F := Ideal) x5 _).trans
      (congrArg x5 (funext fun a => Fin.ext (by match a with | ⟨0, _⟩ => rfl))))

/-- The reference's result is the joint network. -/
theorem ref_eq_G (x0 : (⟨S4x200x512, .f32⟩ : BufTy).Contents (Elt Ideal)) (x1 : (⟨S4x100x512, .f32⟩ : BufTy).Contents (Elt Ideal))
    (x2 : (⟨S1024x1024, .f32⟩ : BufTy).Contents (Elt Ideal)) (x3 : (⟨S1024, .f32⟩ : BufTy).Contents (Elt Ideal))
    (x4 : (⟨S512x1024, .f32⟩ : BufTy).Contents (Elt Ideal)) (x5 : (⟨S512, .f32⟩ : BufTy).Contents (Elt Ideal)) :
    Cert.ReferenceIdeal.Read.val_main_v16 (F := Ideal) x0 x1 x2 x3 x4 x5 = Cert.Joint.G x0 x1 x2 x3 x4 x5 := by
  funext i
  obtain ⟨b, t, u, o, rfl⟩ : ∃ (b : Fin 4) (t : Fin 200) (u : Fin 100) (o : Fin 512), i = ix4 b t u o :=
    ⟨i 0, i 1, i 2, i 3, eq_ix4 i⟩
  show val_main_v13 (F := Ideal) x0 x1 x2 x3 x4 (ix4 b t u o) + val_main_v15 (F := Ideal) x5 (ix4 b t u o)
    = (∑ h : Fin 1024, hid x0 x1 x2 x3 b t u h * x4 (ix2 o h)) + x5 (ix1 o)
  rw [a_v13_at, a_v15_at]

end Cert.Joint.Ref
end
-- ==== Proof.Coords.lean ====
/-
  Where a grid point's blocks sit in the arrays. The grid is 4 × 5, the second axis fastest: point `t` works on batch
  row `t / 5` and on the 40 encoder rows starting at `40 · (t % 5)`.
-/
import proofs.«143311_j16784732193240_1_alg».proof.Proof.Gen.KernelIdeal.Launch

noncomputable section

namespace Cert.Joint

open Idealize.ShloMosaic Cert.KernelIdeal Cert.KernelIdeal.Gen

theorem N20 : cfg0.N = 20 := N_0

/-- The batch row point `t` works on. -/
def tb (t : Fin cfg0.N) : Fin 4 := ⟨t.val / 5, by have h := lt_of_lt_of_eq t.isLt N20; omega⟩

/-- The encoder row (of 200) that row `p` of point `t`'s 40-row block is. -/
def trow (t : Fin cfg0.N) (p : Fin 40) : Fin 200 := ⟨40 * (t.val % 5) + p.val, by have h := p.isLt; omega⟩

/-- The point that holds encoder row `r` of batch row `b`. -/
def pointOf (b : Fin 4) (r : Fin 200) : Fin cfg0.N :=
  ⟨5 * b.val + r.val / 40, by rw [N20]; have h := b.isLt; have h' := r.isLt; omega⟩

theorem tb_pointOf (b : Fin 4) (r : Fin 200) : tb (pointOf b r) = b := by
  apply Fin.ext; show (5 * b.val + r.val / 40) / 5 = b.val; have h' := r.isLt; omega

theorem trow_pointOf (b : Fin 4) (r : Fin 200) : trow (pointOf b r) ⟨r.val % 40, Nat.mod_lt _ (by decide)⟩ = r := by
  apply Fin.ext; show 40 * ((5 * b.val + r.val / 40) % 5) + r.val % 40 = r.val; have h' := r.isLt; omega

end Cert.Joint

end
-- ==== Proof.Pieces.lean ====
/-
  What one run of the kernel body leaves behind, per control case, as terms over the values it loaded.

  The body has one conditional: at the first encoder tile of a batch row it fills the carried scratch with the decoder
  block through the decoder half of the first layer (a 100 × 1024 matrix product); at every point it then computes the
  output block from the encoder block, the scratch, the two biases and the second layer. Each store covers its whole
  buffer, so what a buffer holds afterwards is the last value stored, and a load of a buffer just stored whole reads
  that value back.
-/
import proofs.«143311_j16784732193240_1_alg».proof.Proof.Gen.KernelIdeal.Frame
import Idealize.ShloMosaic.Lib.Pipeline.Value
import Idealize.ShloMosaic.Lib.Tactic

noncomputable section

namespace Cert.Joint.Pieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

theorem hz1 : (![0] : Fin 1 → Nat) = fun _ => 0 := funext fun a => by fin_cases a <;> rfl
theorem hz3 : (![0, 0, 0] : Fin 3 → Nat) = fun _ => 0 := funext fun a => by fin_cases a <;> rfl

/-- A point that does not refill the scratch: the block stored is the second-layer value over the scratch as found. -/
theorem out_B (c : Dev nD) (i : grid0.Coords) (a2 : Memref sig .tc .vmem S1x40x512 .f32) (h2 : a2.IsWhole) (a3 : Memref sig .tc .vmem S1x100x512 .f32) (h3 : a3.IsWhole) (a4 : Memref sig .tc .vmem S512x1024 .bf16) (h4 : a4.IsWhole) (a5 : Memref sig .tc .vmem S512x1024 .bf16) (h5 : a5.IsWhole) (a6 : Memref sig .tc .vmem S1024 .f32) (h6 : a6.IsWhole) (a7 : Memref sig .tc .vmem S1024x512 .bf16) (h7 : a7.IsWhole) (a8 : Memref sig .tc .vmem S512 .f32) (h8 : a8.IsWhole) (a9 : Memref sig .tc .vmem S1x40x100x512 .f32) (h9 : a9.IsWhole) (a10 : Memref sig .tc .vmem S100x1024 .f32) (h10 : a10.IsWhole) (hc : ¬cond0_0 i) (x0 : Vec F S1x40x512 .f32) (x1 : Vec F S1x100x512 .f32) (x2 : Vec F S512x1024 .bf16) (x3 : Vec F S512x1024 .bf16) (x4 : Vec F S1024 .f32) (x5 : Vec F S1024x512 .bf16) (x6 : Vec F S512 .f32) (xs : Vec F S100x1024 .f32) :
    out0_B_7 c i a2 h2 a3 h3 a4 h4 a5 h5 a6 h6 a7 h7 a8 h8 a9 h9 a10 h10 hc x0 x1 x2 x3 x4 x5 x6 xs = k0_pay2 x0 x2 xs x4 x5 x6 := by
  unfold out0_B_7
  rw [View.read_writes_eq_canon _ _ _ (cover0_B_7 c i a2 h2 a3 h3 a4 h4 a5 h5 a6 h6 a7 h7 a8 h8 a9 h9 a10 h10 hc x0 x1 x2 x3 x4 x5 x6 xs)]
  unfold kernelRun0_B
  dsimp only
  rw [View.canon_unit_zero hz4]
  simp only [View.readAt_eq_ld, h2.read_unread, h4.read_unread, h10.read_unread, h6.read_unread, h7.read_unread,
    h8.read_unread, View.ld_unit_zero (S := S1x40x512) hz3, View.ld_unit_zero (S := S512x1024) hz2,
    View.ld_unit_zero (S := S100x1024) hz2, View.ld_unit_zero (S := S1024) hz1,
    View.ld_unit_zero (S := S1024x512) hz2, View.ld_unit_zero (S := S512) hz1]

/-- A point that refills the scratch leaves in it the decoder block through the decoder half of the first layer. -/
theorem scr_A (c : Dev nD) (i : grid0.Coords) (a2 : Memref sig .tc .vmem S1x40x512 .f32) (h2 : a2.IsWhole) (a3 : Memref sig .tc .vmem S1x100x512 .f32) (h3 : a3.IsWhole) (a4 : Memref sig .tc .vmem S512x1024 .bf16) (h4 : a4.IsWhole) (a5 : Memref sig .tc .vmem S512x1024 .bf16) (h5 : a5.IsWhole) (a6 : Memref sig .tc .vmem S1024 .f32) (h6 : a6.IsWhole) (a7 : Memref sig .tc .vmem S1024x512 .bf16) (h7 : a7.IsWhole) (a8 : Memref sig .tc .vmem S512 .f32) (h8 : a8.IsWhole) (a9 : Memref sig .tc .vmem S1x40x100x512 .f32) (h9 : a9.IsWhole) (a10 : Memref sig .tc .vmem S100x1024 .f32) (h10 : a10.IsWhole) (hc : cond0_0 i) (x0 : Vec F S1x40x512 .f32) (x1 : Vec F S1x100x512 .f32) (x2 : Vec F S512x1024 .bf16) (x3 : Vec F S512x1024 .bf16) (x4 : Vec F S1024 .f32) (x5 : Vec F S1024x512 .bf16) (x6 : Vec F S512 .f32) :
    sout0_A_0 c i a2 h2 a3 h3 a4 h4 a5 h5 a6 h6 a7 h7 a8 h8 a9 h9 a10 h10 hc x0 x1 x2 x3 x4 x5 x6 = k0_pay1 x1 x3 := by
  unfold sout0_A_0
  rw [View.read_writes_eq_canon _ _ _ (scover0_A_0 c i a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz2]
  simp only [View.readAt_eq_ld, h3.read_unread, h5.read_unread, View.ld_unit_zero (S := S1x100x512) hz3,
    View.ld_unit_zero (S := S512x1024) hz2]

/-- … and the block it stores is the second-layer value over the scratch it has just refilled. -/
theorem out_A (c : Dev nD) (i : grid0.Coords) (a2 : Memref sig .tc .vmem S1x40x512 .f32) (h2 : a2.IsWhole) (a3 : Memref sig .tc .vmem S1x100x512 .f32) (h3 : a3.IsWhole) (a4 : Memref sig .tc .vmem S512x1024 .bf16) (h4 : a4.IsWhole) (a5 : Memref sig .tc .vmem S512x1024 .bf16) (h5 : a5.IsWhole) (a6 : Memref sig .tc .vmem S1024 .f32) (h6 : a6.IsWhole) (a7 : Memref sig .tc .vmem S1024x512 .bf16) (h7 : a7.IsWhole) (a8 : Memref sig .tc .vmem S512 .f32) (h8 : a8.IsWhole) (a9 : Memref sig .tc .vmem S1x40x100x512 .f32) (h9 : a9.IsWhole) (a10 : Memref sig .tc .vmem S100x1024 .f32) (h10 : a10.IsWhole) (hc : cond0_0 i) (x0 : Vec F S1x40x512 .f32) (x1 : Vec F S1x100x512 .f32) (x2 : Vec F S512x1024 .bf16) (x3 : Vec F S512x1024 .bf16) (x4 : Vec F S1024 .f32) (x5 : Vec F S1024x512 .bf16) (x6 : Vec F S512 .f32) :
    out0_A_7 c i a2 h2 a3 h3 a4 h4 a5 h5 a6 h6 a7 h7 a8 h8 a9 h9 a10 h10 hc x0 x1 x2 x3 x4 x5 x6 = k0_pay2 x0 x2 (k0_pay1 x1 x3) x4 x5 x6 := by
  unfold out0_A_7
  rw [View.read_writes_eq_canon _ _ _ (cover0_A_7 c i a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz4, View.readCov_unit_zero (S := S100x1024) _ hz2]
  simp only [View.readAt_eq_ld, h2.read_unread, h3.read_unread, h4.read_unread, h5.read_unread, h6.read_unread,
    h7.read_unread, h8.read_unread, View.ld_unit_zero (S := S1x40x512) hz3, View.ld_unit_zero (S := S512x1024) hz2,
    View.ld_unit_zero (S := S1x100x512) hz3, View.ld_unit_zero (S := S1024) hz1,
    View.ld_unit_zero (S := S1024x512) hz2, View.ld_unit_zero (S := S512) hz1]

end Cert.Joint.Pieces
end
-- ==== Proof.PerPoint.lean ====
/-
  What the output block and the carried scratch hold after each grid point, as terms over the point's input blocks.

  The scratch is refilled at the first encoder tile of each batch row (the points divisible by 5) and left alone at
  the other four, so after ANY point the output block is the second-layer value computed over the scratch as it
  stands after that same point: freshly refilled at a refilling point, inherited from the point before otherwise.
-/
import proofs.«143311_j16784732193240_1_alg».proof.Proof.Gen.KernelIdeal.Frame
import proofs.«143311_j16784732193240_1_alg».proof.Proof.Pieces

noncomputable section

namespace Cert.Joint.PerPoint

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- After a refilling point the scratch is the decoder block through the decoder half of the first layer. -/
theorem scr_A (c : Dev nD) (t : Fin cfg0.N) (h0 : t.val % 5 = 0) :
    (outsAt0 m c t.val t.isLt).2 = k0_pay1 (iblk m c 1 t) (iblk m c 3 t) := by
  rw [outsAt0_A m c t h0]
  dsimp only
  exact Pieces.scr_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)

/-- After any other point the scratch is what the point before left. -/
theorem scr_B (c : Dev nD) (t : Fin cfg0.N) (h0 : ¬t.val % 5 = 0) :
    (outsAt0 m c t.val t.isLt).2 = (outsAt0 m c (t.val - 1) (Nat.lt_of_le_of_lt (Nat.sub_le _ _) t.isLt)).2 := by
  rw [outsAt0_B m c t h0]
  rfl

/-- After any point the output block is the second-layer value over the scratch as it stands after that point. -/
theorem out_any (c : Dev nD) (t : Fin cfg0.N) :
    (outsAt0 m c t.val t.isLt).1
      = k0_pay2 (iblk m c 0 t) (iblk m c 2 t) (outsAt0 m c t.val t.isLt).2 (iblk m c 4 t) (iblk m c 5 t) (iblk m c 6 t) := by
  by_cases h0 : t.val % 5 = 0
  · rw [scr_A m c t h0, outsAt0_A m c t h0]
    dsimp only
    exact Pieces.out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)
  · rw [scr_B m c t h0, outsAt0_B m c t h0]
    dsimp only
    exact Pieces.out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2

end Cert.Joint.PerPoint

end
-- ==== Proof.Pay.lean ====
/-
  The two values the joint network's kernel body stores, read at an index, over the extended reals.

  The first stored value is the decoder half of the first layer: a [1, 100, 512] block of decoder rows (its unit axis
  dropped) times a [512, 1024] block of weights, so its entry (u, h) is ∑ k, dec[0, u, k] · w[k, h].

  The second stored value is the network's result on one block: the encoder half of the first layer, a [1, 40, 512]
  block times a [512, 1024] block, gives a [40, 1024] matrix; it is repeated along a new middle axis of length 100,
  the stored decoder half [100, 1024] is repeated along a new leading axis of length 40, the bias [1024] is repeated
  along both, and the three are added and passed through the hyperbolic tangent, entry by entry: the hidden
  activations, [40, 100, 1024]. These are laid out as a [4000, 1024] matrix — entry (p, u) becomes row 100 · p + u,
  row-major —, multiplied by the second layer's [1024, 512] block, laid back out as [40, 100, 512], and the second bias
  [512] is added. So its entry (0, p, u, o) is
      (∑ h, tanh ((∑ k, enc[0, p, k] · w[k, h]) + d[u, h] + b1[h]) · w2[h, o]) + b2[o].

  Over the extended reals a change of number format is the identity, a matrix product accumulated into the zero matrix
  is the plain sum of products over the contracted axis, and each layout step (a cast between shapes of equal row-major
  positions, a repetition along an axis of extent one) reads one entry of its operand; the two theorems chain these
  steps, outermost first.
-/
import proofs.«143311_j16784732193240_1_alg».proof.Proof.Gen.KernelIdeal.Skeleton
import proofs.«143311_j16784732193240_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.Joint.Pay
open Idealize.ShloMosaic Idealize.ShloMosaic.ValueIdx Cert.KernelIdeal Cert.KernelIdeal.Gen

/-! ## A matrix product accumulated into zero, read at (row, column): the three products of the body -/

/-- On the one left non-contracting axis the left operand's index is the result's row. -/
theorem b_mm1_lhs0 (i : S100x1024.Idx) (q : dot_S100x512_S512x1024_S100x1024_1_0_0_1_n_n.contr.Idx) :
    (dot_S100x512_S512x1024_S100x1024_1_0_0_1_n_n.lhsIdx i q 0).val = (i 0).val := by
  unfold DotDims.lhsIdx
  rw [dif_neg (show ¬(0 : Fin S100x512.rank) ∈ dot_S100x512_S512x1024_S100x1024_1_0_0_1_n_n.lhsBatch by decide), dif_pos (show (0 : Fin S100x512.rank) ∈ dot_S100x512_S512x1024_S100x1024_1_0_0_1_n_n.lhsNonContracting by decide)]
  rfl
/-- On the left contracting axis it is the contraction position. -/
theorem b_mm1_lhs1 (i : S100x1024.Idx) (q : dot_S100x512_S512x1024_S100x1024_1_0_0_1_n_n.contr.Idx) :
    (dot_S100x512_S512x1024_S100x1024_1_0_0_1_n_n.lhsIdx i q 1).val = (q ⟨0, by decide⟩).val :=
  dot_S100x512_S512x1024_S100x1024_1_0_0_1_n_n.lhsIdx_val_of_single rfl i q
/-- On the right contracting axis the right operand's index is the contraction position. -/
theorem b_mm1_rhs0 (i : S100x1024.Idx) (q : dot_S100x512_S512x1024_S100x1024_1_0_0_1_n_n.contr.Idx) :
    (dot_S100x512_S512x1024_S100x1024_1_0_0_1_n_n.rhsIdx i q 0).val = (q ⟨0, by decide⟩).val :=
  dot_S100x512_S512x1024_S100x1024_1_0_0_1_n_n.rhsIdx_val_of_single rfl i q
/-- On the one right non-contracting axis it is the result's column. -/
theorem b_mm1_rhs1 (i : S100x1024.Idx) (q : dot_S100x512_S512x1024_S100x1024_1_0_0_1_n_n.contr.Idx) :
    (dot_S100x512_S512x1024_S100x1024_1_0_0_1_n_n.rhsIdx i q 1).val = (i 1).val := by
  unfold DotDims.rhsIdx
  rw [dif_neg (show ¬(1 : Fin S512x1024.rank) ∈ dot_S100x512_S512x1024_S100x1024_1_0_0_1_n_n.rhsBatch by decide), dif_pos (show (1 : Fin S512x1024.rank) ∈ dot_S100x512_S512x1024_S100x1024_1_0_0_1_n_n.rhsNonContracting by decide)]
  rfl
/-- A 100×512 matrix times a 512×1024 matrix, accumulated into the zero matrix, read at (r, c): the plain sum over the 512 contracted positions. -/
theorem b_mm1 (x : FVec Ideal S100x512 .bf16) (y : FVec Ideal S512x1024 .bf16) (r : Fin 100) (c : Fin 1024) :
    matmul dot_S100x512_S512x1024_S100x1024_1_0_0_1_n_n none x y (constant (F := Ideal) S100x1024 .f32 0x00000000#32) (ix2 r c)
      = ∑ k : Fin 512, (x (ix2 r k) : EReal) * y (ix2 k c) := by
  refine (Ideal.matmul_constant_zero_apply dot_S100x512_S512x1024_S100x1024_1_0_0_1_n_n none x y (ix2 r c)).trans ?_
  rw [← Equiv.sum_comp (ValueIdx.contrEquiv1 dot_S100x512_S512x1024_S100x1024_1_0_0_1_n_n 512 rfl rfl).symm]
  refine Finset.sum_congr rfl fun k _ => ?_
  have hk := ValueIdx.contrEquiv1_symm_val dot_S100x512_S512x1024_S100x1024_1_0_0_1_n_n 512 rfl rfl k
  have el : dot_S100x512_S512x1024_S100x1024_1_0_0_1_n_n.lhsIdx (ix2 r c) ((ValueIdx.contrEquiv1 dot_S100x512_S512x1024_S100x1024_1_0_0_1_n_n 512 rfl rfl).symm k) = ix2 r k := funext fun a => Fin.ext (by
    match a with
    | ⟨0, _⟩ => exact b_mm1_lhs0 _ _
    | ⟨1, _⟩ => exact (b_mm1_lhs1 _ _).trans hk)
  have er : dot_S100x512_S512x1024_S100x1024_1_0_0_1_n_n.rhsIdx (ix2 r c) ((ValueIdx.contrEquiv1 dot_S100x512_S512x1024_S100x1024_1_0_0_1_n_n 512 rfl rfl).symm k) = ix2 k c := funext fun a => Fin.ext (by
    match a with
    | ⟨0, _⟩ => exact (b_mm1_rhs0 _ _).trans hk
    | ⟨1, _⟩ => exact b_mm1_rhs1 _ _)
  rw [el, er]

/-- On the one left non-contracting axis the left operand's index is the result's row. -/
theorem b_mm2_lhs0 (i : S40x1024.Idx) (q : dot_S40x512_S512x1024_S40x1024_1_0_0_1_n_n.contr.Idx) :
    (dot_S40x512_S512x1024_S40x1024_1_0_0_1_n_n.lhsIdx i q 0).val = (i 0).val := by
  unfold DotDims.lhsIdx
  rw [dif_neg (show ¬(0 : Fin S40x512.rank) ∈ dot_S40x512_S512x1024_S40x1024_1_0_0_1_n_n.lhsBatch by decide), dif_pos (show (0 : Fin S40x512.rank) ∈ dot_S40x512_S512x1024_S40x1024_1_0_0_1_n_n.lhsNonContracting by decide)]
  rfl
/-- On the left contracting axis it is the contraction position. -/
theorem b_mm2_lhs1 (i : S40x1024.Idx) (q : dot_S40x512_S512x1024_S40x1024_1_0_0_1_n_n.contr.Idx) :
    (dot_S40x512_S512x1024_S40x1024_1_0_0_1_n_n.lhsIdx i q 1).val = (q ⟨0, by decide⟩).val :=
  dot_S40x512_S512x1024_S40x1024_1_0_0_1_n_n.lhsIdx_val_of_single rfl i q
/-- On the right contracting axis the right operand's index is the contraction position. -/
theorem b_mm2_rhs0 (i : S40x1024.Idx) (q : dot_S40x512_S512x1024_S40x1024_1_0_0_1_n_n.contr.Idx) :
    (dot_S40x512_S512x1024_S40x1024_1_0_0_1_n_n.rhsIdx i q 0).val = (q ⟨0, by decide⟩).val :=
  dot_S40x512_S512x1024_S40x1024_1_0_0_1_n_n.rhsIdx_val_of_single rfl i q
/-- On the one right non-contracting axis it is the result's column. -/
theorem b_mm2_rhs1 (i : S40x1024.Idx) (q : dot_S40x512_S512x1024_S40x1024_1_0_0_1_n_n.contr.Idx) :
    (dot_S40x512_S512x1024_S40x1024_1_0_0_1_n_n.rhsIdx i q 1).val = (i 1).val := by
  unfold DotDims.rhsIdx
  rw [dif_neg (show ¬(1 : Fin S512x1024.rank) ∈ dot_S40x512_S512x1024_S40x1024_1_0_0_1_n_n.rhsBatch by decide), dif_pos (show (1 : Fin S512x1024.rank) ∈ dot_S40x512_S512x1024_S40x1024_1_0_0_1_n_n.rhsNonContracting by decide)]
  rfl
/-- A 40×512 matrix times a 512×1024 matrix, accumulated into the zero matrix, read at (r, c): the plain sum over the 512 contracted positions. -/
theorem b_mm2 (x : FVec Ideal S40x512 .bf16) (y : FVec Ideal S512x1024 .bf16) (r : Fin 40) (c : Fin 1024) :
    matmul dot_S40x512_S512x1024_S40x1024_1_0_0_1_n_n none x y (constant (F := Ideal) S40x1024 .f32 0x00000000#32) (ix2 r c)
      = ∑ k : Fin 512, (x (ix2 r k) : EReal) * y (ix2 k c) := by
  refine (Ideal.matmul_constant_zero_apply dot_S40x512_S512x1024_S40x1024_1_0_0_1_n_n none x y (ix2 r c)).trans ?_
  rw [← Equiv.sum_comp (ValueIdx.contrEquiv1 dot_S40x512_S512x1024_S40x1024_1_0_0_1_n_n 512 rfl rfl).symm]
  refine Finset.sum_congr rfl fun k _ => ?_
  have hk := ValueIdx.contrEquiv1_symm_val dot_S40x512_S512x1024_S40x1024_1_0_0_1_n_n 512 rfl rfl k
  have el : dot_S40x512_S512x1024_S40x1024_1_0_0_1_n_n.lhsIdx (ix2 r c) ((ValueIdx.contrEquiv1 dot_S40x512_S512x1024_S40x1024_1_0_0_1_n_n 512 rfl rfl).symm k) = ix2 r k := funext fun a => Fin.ext (by
    match a with
    | ⟨0, _⟩ => exact b_mm2_lhs0 _ _
    | ⟨1, _⟩ => exact (b_mm2_lhs1 _ _).trans hk)
  have er : dot_S40x512_S512x1024_S40x1024_1_0_0_1_n_n.rhsIdx (ix2 r c) ((ValueIdx.contrEquiv1 dot_S40x512_S512x1024_S40x1024_1_0_0_1_n_n 512 rfl rfl).symm k) = ix2 k c := funext fun a => Fin.ext (by
    match a with
    | ⟨0, _⟩ => exact (b_mm2_rhs0 _ _).trans hk
    | ⟨1, _⟩ => exact b_mm2_rhs1 _ _)
  rw [el, er]

/-- On the one left non-contracting axis the left operand's index is the result's row. -/
theorem b_mm3_lhs0 (i : S4000x512.Idx) (q : dot_S4000x1024_S1024x512_S4000x512_1_0_0_1_n_n.contr.Idx) :
    (dot_S4000x1024_S1024x512_S4000x512_1_0_0_1_n_n.lhsIdx i q 0).val = (i 0).val := by
  unfold DotDims.lhsIdx
  rw [dif_neg (show ¬(0 : Fin S4000x1024.rank) ∈ dot_S4000x1024_S1024x512_S4000x512_1_0_0_1_n_n.lhsBatch by decide), dif_pos (show (0 : Fin S4000x1024.rank) ∈ dot_S4000x1024_S1024x512_S4000x512_1_0_0_1_n_n.lhsNonContracting by decide)]
  rfl
/-- On the left contracting axis it is the contraction position. -/
theorem b_mm3_lhs1 (i : S4000x512.Idx) (q : dot_S4000x1024_S1024x512_S4000x512_1_0_0_1_n_n.contr.Idx) :
    (dot_S4000x1024_S1024x512_S4000x512_1_0_0_1_n_n.lhsIdx i q 1).val = (q ⟨0, by decide⟩).val :=
  dot_S4000x1024_S1024x512_S4000x512_1_0_0_1_n_n.lhsIdx_val_of_single rfl i q
/-- On the right contracting axis the right operand's index is the contraction position. -/
theorem b_mm3_rhs0 (i : S4000x512.Idx) (q : dot_S4000x1024_S1024x512_S4000x512_1_0_0_1_n_n.contr.Idx) :
    (dot_S4000x1024_S1024x512_S4000x512_1_0_0_1_n_n.rhsIdx i q 0).val = (q ⟨0, by decide⟩).val :=
  dot_S4000x1024_S1024x512_S4000x512_1_0_0_1_n_n.rhsIdx_val_of_single rfl i q
/-- On the one right non-contracting axis it is the result's column. -/
theorem b_mm3_rhs1 (i : S4000x512.Idx) (q : dot_S4000x1024_S1024x512_S4000x512_1_0_0_1_n_n.contr.Idx) :
    (dot_S4000x1024_S1024x512_S4000x512_1_0_0_1_n_n.rhsIdx i q 1).val = (i 1).val := by
  unfold DotDims.rhsIdx
  rw [dif_neg (show ¬(1 : Fin S1024x512.rank) ∈ dot_S4000x1024_S1024x512_S4000x512_1_0_0_1_n_n.rhsBatch by decide), dif_pos (show (1 : Fin S1024x512.rank) ∈ dot_S4000x1024_S1024x512_S4000x512_1_0_0_1_n_n.rhsNonContracting by decide)]
  rfl
/-- A 4000×1024 matrix times a 1024×512 matrix, accumulated into the zero matrix, read at (r, c): the plain sum over the 1024 contracted positions. -/
theorem b_mm3 (x : FVec Ideal S4000x1024 .bf16) (y : FVec Ideal S1024x512 .bf16) (r : Fin 4000) (c : Fin 512) :
    matmul dot_S4000x1024_S1024x512_S4000x512_1_0_0_1_n_n none x y (constant (F := Ideal) S4000x512 .f32 0x00000000#32) (ix2 r c)
      = ∑ k : Fin 1024, (x (ix2 r k) : EReal) * y (ix2 k c) := by
  refine (Ideal.matmul_constant_zero_apply dot_S4000x1024_S1024x512_S4000x512_1_0_0_1_n_n none x y (ix2 r c)).trans ?_
  rw [← Equiv.sum_comp (ValueIdx.contrEquiv1 dot_S4000x1024_S1024x512_S4000x512_1_0_0_1_n_n 1024 rfl rfl).symm]
  refine Finset.sum_congr rfl fun k _ => ?_
  have hk := ValueIdx.contrEquiv1_symm_val dot_S4000x1024_S1024x512_S4000x512_1_0_0_1_n_n 1024 rfl rfl k
  have el : dot_S4000x1024_S1024x512_S4000x512_1_0_0_1_n_n.lhsIdx (ix2 r c) ((ValueIdx.contrEquiv1 dot_S4000x1024_S1024x512_S4000x512_1_0_0_1_n_n 1024 rfl rfl).symm k) = ix2 r k := funext fun a => Fin.ext (by
    match a with
    | ⟨0, _⟩ => exact b_mm3_lhs0 _ _
    | ⟨1, _⟩ => exact (b_mm3_lhs1 _ _).trans hk)
  have er : dot_S4000x1024_S1024x512_S4000x512_1_0_0_1_n_n.rhsIdx (ix2 r c) ((ValueIdx.contrEquiv1 dot_S4000x1024_S1024x512_S4000x512_1_0_0_1_n_n 1024 rfl rfl).symm k) = ix2 k c := funext fun a => Fin.ext (by
    match a with
    | ⟨0, _⟩ => exact (b_mm3_rhs0 _ _).trans hk
    | ⟨1, _⟩ => exact b_mm3_rhs1 _ _)
  rw [el, er]

/-! ## The layout steps of the second stored value, each read at coordinates -/

section Layout
variable {α : Type}

/-- Row `100 · p + u` of a 4000-row matrix: where entry `(p, u)` of a 40 × 100 array of rows sits, row-major. -/
def b_row (p : Fin 40) (u : Fin 100) : Fin 4000 := ⟨100 * p.val + u.val, by have := p.isLt; have := u.isLt; omega⟩

/-- A `[40, 100, n]` array viewed as a `[4000, n]` matrix reads, at row `100 · p + u`, entry `(p, u)`. -/
theorem b_cast_flat {n : ℕ} (x : (⟨3, ![40, 100, n]⟩ : Shape).Idx → α)
    (h : (⟨3, ![40, 100, n]⟩ : Shape).ShapeCasts ⟨2, ![4000, n]⟩) (p : Fin 40) (u : Fin 100) (c : Fin n) :
    shapeCast ⟨2, ![4000, n]⟩ x h (ix2 (b_row p u) c) = x (ix3 p u c) :=
  shapeCast_apply x h _ _ (by
    rw [Shape.rowMajor_val_three, Shape.rowMajor_val_two]
    show (p.val * 100 + u.val) * n + c.val = (100 * p.val + u.val) * n + c.val
    rw [Nat.mul_comm p.val 100])

/-- A `[4000, n]` matrix viewed as a `[40, 100, n]` array reads, at `(p, u)`, row `100 · p + u`. -/
theorem b_cast_unflat {n : ℕ} (x : (⟨2, ![4000, n]⟩ : Shape).Idx → α)
    (h : (⟨2, ![4000, n]⟩ : Shape).ShapeCasts ⟨3, ![40, 100, n]⟩) (p : Fin 40) (u : Fin 100) (c : Fin n) :
    shapeCast ⟨3, ![40, 100, n]⟩ x h (ix3 p u c) = x (ix2 (b_row p u) c) :=
  shapeCast_apply x h _ _ (by
    rw [Shape.rowMajor_val_three, Shape.rowMajor_val_two]
    show (100 * p.val + u.val) * n + c.val = (p.val * 100 + u.val) * n + c.val
    rw [Nat.mul_comm p.val 100])

/-- A vector `[n]` viewed as `[1, 1, n]` and spread over `[m, a, n]` reads, at `(p, u, c)`, the vector at `c`. -/
theorem b_spread_vec {m a n : ℕ} (x : (⟨1, ![n]⟩ : Shape).Idx → α)
    (h1 : (⟨1, ![n]⟩ : Shape).ShapeCasts ⟨3, ![1, 1, n]⟩) (h2 : (⟨3, ![1, 1, n]⟩ : Shape).Broadcasts ⟨3, ![m, a, n]⟩)
    (p : Fin m) (u : Fin a) (c : Fin n) :
    broadcastTo ⟨3, ![m, a, n]⟩ (shapeCast ⟨3, ![1, 1, n]⟩ x h1) h2 (ix3 p u c) = x (ix1 c) := by
  refine (broadcastTo_apply _ h2 (ix3 p u c) (ix3 (0 : Fin 1) (0 : Fin 1) c) fun ax => ?_).trans ?_
  · match ax with
    | ⟨0, _⟩ => rfl
    | ⟨1, _⟩ => rfl
    | ⟨2, _⟩ =>
      show c.val = if n = 1 then 0 else c.val
      split
      · have := c.isLt; omega
      · rfl
  · exact shapeCast_apply x h1 _ _ (by
      rw [Shape.rowMajor_val_three, Shape.rowMajor_val_one]
      show c.val = (0 * 1 + 0) * n + c.val
      simp only [Nat.zero_mul, Nat.zero_add])

/-- A matrix `[m, n]` viewed as `[m, 1, n]` and spread over `[m, a, n]` reads, at `(p, u, c)`, the matrix at `(p, c)`. -/
theorem b_spread_rows {m a n : ℕ} (hm : m ≠ 1) (x : (⟨2, ![m, n]⟩ : Shape).Idx → α)
    (h1 : (⟨2, ![m, n]⟩ : Shape).ShapeCasts ⟨3, ![m, 1, n]⟩) (h2 : (⟨3, ![m, 1, n]⟩ : Shape).Broadcasts ⟨3, ![m, a, n]⟩)
    (p : Fin m) (u : Fin a) (c : Fin n) :
    broadcastTo ⟨3, ![m, a, n]⟩ (shapeCast ⟨3, ![m, 1, n]⟩ x h1) h2 (ix3 p u c) = x (ix2 p c) := by
  refine (broadcastTo_apply _ h2 (ix3 p u c) (ix3 p (0 : Fin 1) c) fun ax => ?_).trans ?_
  · match ax with
    | ⟨0, _⟩ =>
      show p.val = if m = 1 then 0 else p.val
      rw [if_neg hm]
    | ⟨1, _⟩ => rfl
    | ⟨2, _⟩ =>
      show c.val = if n = 1 then 0 else c.val
      split
      · have := c.isLt; omega
      · rfl
  · exact shapeCast_apply x h1 _ _ (by
      rw [Shape.rowMajor_val_three, Shape.rowMajor_val_two]
      show p.val * n + c.val = (p.val * 1 + 0) * n + c.val
      rw [Nat.mul_one, Nat.add_zero])

/-- A matrix `[a, n]` viewed as `[1, a, n]` and spread over `[m, a, n]` reads, at `(p, u, c)`, the matrix at `(u, c)`. -/
theorem b_spread_mat {m a n : ℕ} (ha : a ≠ 1) (x : (⟨2, ![a, n]⟩ : Shape).Idx → α)
    (h1 : (⟨2, ![a, n]⟩ : Shape).ShapeCasts ⟨3, ![1, a, n]⟩) (h2 : (⟨3, ![1, a, n]⟩ : Shape).Broadcasts ⟨3, ![m, a, n]⟩)
    (p : Fin m) (u : Fin a) (c : Fin n) :
    broadcastTo ⟨3, ![m, a, n]⟩ (shapeCast ⟨3, ![1, a, n]⟩ x h1) h2 (ix3 p u c) = x (ix2 u c) := by
  refine (broadcastTo_apply _ h2 (ix3 p u c) (ix3 (0 : Fin 1) u c) fun ax => ?_).trans ?_
  · match ax with
    | ⟨0, _⟩ => rfl
    | ⟨1, _⟩ =>
      show u.val = if a = 1 then 0 else u.val
      rw [if_neg ha]
    | ⟨2, _⟩ =>
      show c.val = if n = 1 then 0 else c.val
      split
      · have := c.isLt; omega
      · rfl
  · exact shapeCast_ab_1ab_apply x h1 (0 : Fin 1) u c

end Layout

/-! ## The two stored values at an index -/

/-- A hyperbolic tangent applied entry by entry reads, at an index, the tangent of the entry. -/
theorem b_tanh_apply {s : Shape} {φ : FTy} (x : FVec Ideal s φ) (i : s.Idx) : tanh x i = Ideal.tanh (x i) := rfl

theorem pay1_at (v33 : Vec Ideal S1x100x512 .f32) (v36 : Vec Ideal S512x1024 .bf16) (u : Fin 100) (h : Fin 1024) :
    k0_pay1 (F := Ideal) v33 v36 (ix2 u h) = ∑ k : Fin 512, v33 (ix3 0 u k) * v36 (ix2 k h) := by
  unfold k0_pay1
  -- the cast of the product to its own shape is the identity; then the product at (u, h)
  refine (congrFun (shapeCast_self _ _) (ix2 u h)).trans ?_
  refine (b_mm1 _ _ u h).trans ?_
  refine Finset.sum_congr rfl fun k _ => ?_
  refine congrArg₂ (· * ·) ?_ (congrFun (shapeCast_self v36 _) (ix2 k h))
  -- the left factor: the change of format is the identity on extended reals, and the leading unit axis reads 0
  refine (truncf_apply (φ := .f32) (ψ := .bf16) _ _ _).trans ?_
  exact shapeCast_1ab_ab_apply v33 _ u k

theorem pay2_at (v3 : Vec Ideal S1x40x512 .f32) (v6 : Vec Ideal S512x1024 .bf16) (v9 : Vec Ideal S100x1024 .f32)
    (v10 : Vec Ideal S1024 .f32) (v21 : Vec Ideal S1024x512 .bf16) (v25 : Vec Ideal S512 .f32)
    (p : Fin 40) (u : Fin 100) (o : Fin 512) :
    k0_pay2 (F := Ideal) v3 v6 v9 v10 v21 v25 (ix4 0 p u o)
      = (∑ h : Fin 1024, Ideal.tanh (((∑ k : Fin 512, v3 (ix3 0 p k) * v6 (ix2 k h)) + v9 (ix2 u h)) + v10 (ix1 h))
          * v21 (ix2 h o)) + v25 (ix1 o) := by
  unfold k0_pay2
  -- the leading unit axis, then the bias of the second layer
  refine (shapeCast_abc_1abc_apply _ _ (0 : Fin 1) p u o).trans ?_
  refine (addf_apply _ _ _).trans ?_
  refine congrArg₂ (· + ·) ?_ (b_spread_vec v25 _ _ p u o)
  -- the second product: entry (p, u) is row 100 p + u of the 4000-row product
  refine (b_cast_unflat _ _ p u o).trans ?_
  refine (b_mm3 _ _ (b_row p u) o).trans ?_
  refine Finset.sum_congr rfl fun hh _ => ?_
  refine congrArg₂ (· * ·) ?_ (congrFun (shapeCast_self v21 _) (ix2 hh o))
  -- row 100 p + u of the flattened activations is the activation at (p, u)
  refine (b_cast_flat _ _ p u hh).trans ?_
  refine (truncf_apply (φ := .f32) (ψ := .bf16) _ _ _).trans ?_
  refine (b_tanh_apply (φ := .f32) _ _).trans ?_
  refine congrArg Ideal.tanh ?_
  -- the three summands under the tangent
  refine (addf_apply _ _ _).trans ?_
  refine congrArg₂ (· + ·) ?_ (b_spread_vec v10 _ _ p u hh)
  refine (addf_apply _ _ _).trans ?_
  refine congrArg₂ (· + ·) ?_ (b_spread_mat (m := 40) (a := 100) (n := 1024) (by decide) v9 _ _ p u hh)
  -- the first product, one row per p, the same for every u
  refine (b_spread_rows (m := 40) (a := 100) (n := 1024) (by decide) _ _ _ p u hh).trans ?_
  refine (b_mm2 _ _ p hh).trans ?_
  refine Finset.sum_congr rfl fun k _ => ?_
  refine congrArg₂ (· * ·) ?_ (congrFun (shapeCast_self v6 _) (ix2 k hh))
  refine (truncf_apply (φ := .f32) (ψ := .bf16) _ _ _).trans ?_
  exact shapeCast_1ab_ab_apply v3 _ p k

end Cert.Joint.Pay
end
-- ==== Proof.Blocks.lean ====
/-
  What each input window's block holds at a grid point, read at explicit coordinates, over the extended reals.

  The grid is 4 × 5 with the second axis fastest: point `t` works on batch row `t / 5` (`tb t`) and on the 40 encoder
  rows starting at `40 · (t % 5)` (`trow t p` for row `p` of the block). A block's coordinate in its array is always
  (block index) × (block size) + (coordinate inside the block), axis by axis; the block indices are decided once over
  the twenty points.

  * window 0: the (1, 40, 512) block of the encoder array at block index (t / 5, t % 5, 0);
  * window 1: the (1, 100, 512) block of the decoder array at block index (t / 5, 0, 0);
  * windows 4 and 6: the two bias vectors, whole;
  * windows 2, 3 and 5: whole arrays that host operations wrote before the region. Over the extended reals the
    narrowing format change is the identity, a transpose swaps the two coordinates and a slice shifts a coordinate
    by its offset, so window 2 holds (k, h) ↦ W1[h, k] (the first 512 columns of W1, transposed), window 3 holds
    (k, h) ↦ W1[h, 512 + k] (the last 512 columns, transposed) and window 5 holds (h, o) ↦ W2[o, h].
-/
import proofs.«143311_j16784732193240_1_alg».proof.Proof.Gen.KernelIdeal.Frame
import proofs.«143311_j16784732193240_1_alg».proof.Proof.Spec
import proofs.«143311_j16784732193240_1_alg».proof.Proof.Coords
import Idealize.ShloMosaic.Lib.Pipeline.Value
import Idealize.ShloMosaic.Lib.ValueIdx
import Idealize.ShloMosaic.Lib.StableHlo.Run

noncomputable section
namespace Cert.Joint.Blocks
open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-! ## The block indices, decided over the twenty grid points -/

/-- Window 0's block index at point `t` is (t / 5, t % 5, 0). -/
theorem c_idx0 : ∀ t : Fin cfg0.N, win0_0.index t 0 = t.val / 5 ∧ win0_0.index t 1 = t.val % 5 ∧ win0_0.index t 2 = 0 :=
  (by decide +kernel : ∀ t : Fin grid0.N, win0_0.index t 0 = t.val / 5 ∧ win0_0.index t 1 = t.val % 5 ∧ win0_0.index t 2 = 0)

/-- Window 1's block index at point `t` is (t / 5, 0, 0). -/
theorem c_idx1 : ∀ t : Fin cfg0.N, win0_1.index t 0 = t.val / 5 ∧ win0_1.index t 1 = 0 ∧ win0_1.index t 2 = 0 :=
  (by decide +kernel : ∀ t : Fin grid0.N, win0_1.index t 0 = t.val / 5 ∧ win0_1.index t 1 = 0 ∧ win0_1.index t 2 = 0)

/-- Windows 2 to 6 stage whole arrays: their block index is 0 on every axis at every point. -/
theorem c_idx2 : ∀ t : Fin cfg0.N, win0_2.index t 0 = 0 ∧ win0_2.index t 1 = 0 :=
  (by decide +kernel : ∀ t : Fin grid0.N, win0_2.index t 0 = 0 ∧ win0_2.index t 1 = 0)

theorem c_idx3 : ∀ t : Fin cfg0.N, win0_3.index t 0 = 0 ∧ win0_3.index t 1 = 0 :=
  (by decide +kernel : ∀ t : Fin grid0.N, win0_3.index t 0 = 0 ∧ win0_3.index t 1 = 0)

theorem c_idx4 : ∀ t : Fin cfg0.N, win0_4.index t 0 = 0 :=
  (by decide +kernel : ∀ t : Fin grid0.N, win0_4.index t 0 = 0)

theorem c_idx5 : ∀ t : Fin cfg0.N, win0_5.index t 0 = 0 ∧ win0_5.index t 1 = 0 :=
  (by decide +kernel : ∀ t : Fin grid0.N, win0_5.index t 0 = 0 ∧ win0_5.index t 1 = 0)

theorem c_idx6 : ∀ t : Fin cfg0.N, win0_6.index t 0 = 0 :=
  (by decide +kernel : ∀ t : Fin grid0.N, win0_6.index t 0 = 0)

/-! ## The arrays the host operations wrote, read at an index -/

/-- The array window 2 stages is the first half of W1's columns, transposed: entry (k, h) is W1[h, k]. -/
theorem c_v3_at (c : Dev nD) (k : Fin 512) (h : Fin 1024) :
    (V m c main_v3 : S512x1024.Idx → EReal) (ix2 k h) = m ((c : Thread nD τ).loc main_arg2) (ix2 h (lo k)) := by
  have e : @Eq (S512x1024.Idx → EReal) (V m c main_v3)
      (truncf (F := Ideal) (φ := .f32) .bf16 (transpose S512x1024 [1, 0] (extractStridedSlice S1024x512 ![0, 0]
          (m ((c : Thread nD τ).loc main_arg2) : S1024x1024.Idx → EReal) slices_S1024x1024_S1024x512_0_0)
          transposes_S1024x512_S512x1024_1_0) bitsLt_bf16_f32) := by
    dsimp only [Gen.V, Gen.hostOps0]; after_results
  rw [e]
  refine (truncf_apply (s := S512x1024) (φ := .f32) (ψ := .bf16) _ bitsLt_bf16_f32 (ix2 k h)).trans ?_
  refine (transpose_apply [1, 0] _ transposes_S1024x512_S512x1024_1_0 (ix2 k h) (ix2 h k) (fun b => match b with
    | ⟨0, _⟩ => rfl
    | ⟨1, _⟩ => rfl)).trans ?_
  exact extractStridedSlice_apply ![0, 0] _ slices_S1024x1024_S1024x512_0_0 (ix2 h k) (ix2 h (lo k)) (fun a => match a with
    | ⟨0, _⟩ => by show h.val = 0 + h.val; omega
    | ⟨1, _⟩ => by show k.val = 0 + k.val; omega)

/-- The array window 3 stages is the second half of W1's columns, transposed: entry (k, h) is W1[h, 512 + k]. -/
theorem c_v5_at (c : Dev nD) (k : Fin 512) (h : Fin 1024) :
    (V m c main_v5 : S512x1024.Idx → EReal) (ix2 k h) = m ((c : Thread nD τ).loc main_arg2) (ix2 h (hi k)) := by
  have e : @Eq (S512x1024.Idx → EReal) (V m c main_v5)
      (truncf (F := Ideal) (φ := .f32) .bf16 (transpose S512x1024 [1, 0] (extractStridedSlice S1024x512 ![0, 512]
          (m ((c : Thread nD τ).loc main_arg2) : S1024x1024.Idx → EReal) slices_S1024x1024_S1024x512_0_512)
          transposes_S1024x512_S512x1024_1_0) bitsLt_bf16_f32) := by
    dsimp only [Gen.V, Gen.hostOps0]; after_results
  rw [e]
  refine (truncf_apply (s := S512x1024) (φ := .f32) (ψ := .bf16) _ bitsLt_bf16_f32 (ix2 k h)).trans ?_
  refine (transpose_apply [1, 0] _ transposes_S1024x512_S512x1024_1_0 (ix2 k h) (ix2 h k) (fun b => match b with
    | ⟨0, _⟩ => rfl
    | ⟨1, _⟩ => rfl)).trans ?_
  exact extractStridedSlice_apply ![0, 512] _ slices_S1024x1024_S1024x512_0_512 (ix2 h k) (ix2 h (hi k)) (fun a => match a with
    | ⟨0, _⟩ => by show h.val = 0 + h.val; omega
    | ⟨1, _⟩ => by show 512 + k.val = 512 + k.val; omega)

/-- The array window 5 stages is W2 transposed: entry (h, o) is W2[o, h]. -/
theorem c_v7_at (c : Dev nD) (h : Fin 1024) (o : Fin 512) :
    (V m c main_v7 : S1024x512.Idx → EReal) (ix2 h o) = m ((c : Thread nD τ).loc main_arg4) (ix2 o h) := by
  have e : @Eq (S1024x512.Idx → EReal) (V m c main_v7)
      (truncf (F := Ideal) (φ := .f32) .bf16 (transpose S1024x512 [1, 0]
          (m ((c : Thread nD τ).loc main_arg4) : S512x1024.Idx → EReal)
          transposes_S512x1024_S1024x512_1_0) bitsLt_bf16_f32) := by
    dsimp only [Gen.V, Gen.hostOps0]; after_results
  rw [e]
  refine (truncf_apply (s := S1024x512) (φ := .f32) (ψ := .bf16) _ bitsLt_bf16_f32 (ix2 h o)).trans ?_
  exact transpose_apply [1, 0] _ transposes_S512x1024_S1024x512_1_0 (ix2 h o) (ix2 o h) (fun b => match b with
    | ⟨0, _⟩ => rfl
    | ⟨1, _⟩ => rfl)

/-! ## The blocks at explicit coordinates -/

/-- Row `p`, column `k` of window 0's block at point `t` is the encoder array at batch row `t / 5`, row
    `40 · (t % 5) + p`, column `k`: the block index times the block size plus the coordinate inside, per axis. -/
theorem iblk0_at (c : Dev nD) (t : Fin cfg0.N) (p : Fin 40) (k : Fin 512) :
    (iblk m c 0 t : Vec Ideal S1x40x512 .f32) (ix3 0 p k) = m ((c : Thread nD τ).loc main_arg0) (ix3 (tb t) (trow t p) k) := by
  unfold iblk
  rw [View.read_apply]
  show V m c main_arg0 (((cfg0.win 0).blk t).view.emb (ix3 0 p k)) = _
  refine (congrFun (V_main_arg0 m c) _).trans ?_
  congr 1
  funext a
  apply Fin.ext
  match a with
  | ⟨0, _⟩ => show win0_0.index t 0 * 1 + 1 * 0 = t.val / 5; rw [(c_idx0 t).1]; omega
  | ⟨1, _⟩ => show win0_0.index t 1 * 40 + 1 * p.val = 40 * (t.val % 5) + p.val; rw [(c_idx0 t).2.1]; omega
  | ⟨2, _⟩ => show win0_0.index t 2 * 512 + 1 * k.val = k.val; rw [(c_idx0 t).2.2]; omega

/-- Row `u`, column `k` of window 1's block at point `t` is the decoder array at batch row `t / 5`, row `u`,
    column `k`. -/
theorem iblk1_at (c : Dev nD) (t : Fin cfg0.N) (u : Fin 100) (k : Fin 512) :
    (iblk m c 1 t : Vec Ideal S1x100x512 .f32) (ix3 0 u k) = m ((c : Thread nD τ).loc main_arg1) (ix3 (tb t) u k) := by
  unfold iblk
  rw [View.read_apply]
  show V m c main_arg1 (((cfg0.win 1).blk t).view.emb (ix3 0 u k)) = _
  refine (congrFun (V_main_arg1 m c) _).trans ?_
  congr 1
  funext a
  apply Fin.ext
  match a with
  | ⟨0, _⟩ => show win0_1.index t 0 * 1 + 1 * 0 = t.val / 5; rw [(c_idx1 t).1]; omega
  | ⟨1, _⟩ => show win0_1.index t 1 * 100 + 1 * u.val = u.val; rw [(c_idx1 t).2.1]; omega
  | ⟨2, _⟩ => show win0_1.index t 2 * 512 + 1 * k.val = k.val; rw [(c_idx1 t).2.2]; omega

/-- Window 2's block is its whole array: entry (k, h) is W1[h, k]. -/
theorem iblk2_at (c : Dev nD) (t : Fin cfg0.N) (k : Fin 512) (h : Fin 1024) :
    (iblk m c 2 t : Vec Ideal S512x1024 .bf16) (ix2 k h) = m ((c : Thread nD τ).loc main_arg2) (ix2 h (lo k)) := by
  unfold iblk
  rw [View.read_apply]
  show V m c main_v3 (((cfg0.win 2).blk t).view.emb (ix2 k h)) = _
  refine Eq.trans ?_ (c_v3_at m c k h)
  congr 1
  funext a
  apply Fin.ext
  match a with
  | ⟨0, _⟩ => show win0_2.index t 0 * 512 + 1 * k.val = k.val; rw [(c_idx2 t).1]; omega
  | ⟨1, _⟩ => show win0_2.index t 1 * 1024 + 1 * h.val = h.val; rw [(c_idx2 t).2]; omega

/-- Window 3's block is its whole array: entry (k, h) is W1[h, 512 + k]. -/
theorem iblk3_at (c : Dev nD) (t : Fin cfg0.N) (k : Fin 512) (h : Fin 1024) :
    (iblk m c 3 t : Vec Ideal S512x1024 .bf16) (ix2 k h) = m ((c : Thread nD τ).loc main_arg2) (ix2 h (hi k)) := by
  unfold iblk
  rw [View.read_apply]
  show V m c main_v5 (((cfg0.win 3).blk t).view.emb (ix2 k h)) = _
  refine Eq.trans ?_ (c_v5_at m c k h)
  congr 1
  funext a
  apply Fin.ext
  match a with
  | ⟨0, _⟩ => show win0_3.index t 0 * 512 + 1 * k.val = k.val; rw [(c_idx3 t).1]; omega
  | ⟨1, _⟩ => show win0_3.index t 1 * 1024 + 1 * h.val = h.val; rw [(c_idx3 t).2]; omega

/-- Window 4's block is the whole first bias vector. -/
theorem iblk4_at (c : Dev nD) (t : Fin cfg0.N) (h : Fin 1024) :
    (iblk m c 4 t : Vec Ideal S1024 .f32) (ix1 h) = m ((c : Thread nD τ).loc main_arg3) (ix1 h) := by
  unfold iblk
  rw [View.read_apply]
  show V m c main_arg3 (((cfg0.win 4).blk t).view.emb (ix1 h)) = _
  refine (congrFun (V_main_arg3 m c) _).trans ?_
  congr 1
  funext a
  apply Fin.ext
  match a with
  | ⟨0, _⟩ => show win0_4.index t 0 * 1024 + 1 * ((ix1 h) 0).val = h.val; rw [c_idx4 t]; show 0 * 1024 + 1 * h.val = h.val; omega

/-- Window 5's block is its whole array: entry (h, o) is W2[o, h]. -/
theorem iblk5_at (c : Dev nD) (t : Fin cfg0.N) (h : Fin 1024) (o : Fin 512) :
    (iblk m c 5 t : Vec Ideal S1024x512 .bf16) (ix2 h o) = m ((c : Thread nD τ).loc main_arg4) (ix2 o h) := by
  unfold iblk
  rw [View.read_apply]
  show V m c main_v7 (((cfg0.win 5).blk t).view.emb (ix2 h o)) = _
  refine Eq.trans ?_ (c_v7_at m c h o)
  congr 1
  funext a
  apply Fin.ext
  match a with
  | ⟨0, _⟩ => show win0_5.index t 0 * 1024 + 1 * h.val = h.val; rw [(c_idx5 t).1]; omega
  | ⟨1, _⟩ => show win0_5.index t 1 * 512 + 1 * o.val = o.val; rw [(c_idx5 t).2]; omega

/-- Window 6's block is the whole second bias vector. -/
theorem iblk6_at (c : Dev nD) (t : Fin cfg0.N) (o : Fin 512) :
    (iblk m c 6 t : Vec Ideal S512 .f32) (ix1 o) = m ((c : Thread nD τ).loc main_arg5) (ix1 o) := by
  unfold iblk
  rw [View.read_apply]
  show V m c main_arg5 (((cfg0.win 6).blk t).view.emb (ix1 o)) = _
  refine (congrFun (V_main_arg5 m c) _).trans ?_
  congr 1
  funext a
  apply Fin.ext
  match a with
  | ⟨0, _⟩ => show win0_6.index t 0 * 512 + 1 * ((ix1 o) 0).val = o.val; rw [c_idx6 t]; show 0 * 512 + 1 * o.val = o.val; omega

end Cert.Joint.Blocks
end
-- ==== Proof.KVal.lean ====
/-
  What the kernel's output block and carried scratch hold after each grid point, as values of the network.

  The scratch after point `t` is the decoder projection `∑ k, dec[b,u,k] · W1[h,512+k]` of the point's batch row
  `b = t / 5`: the row's first point computes it, the next four are of the same batch row and do not touch it
  (induction on the point). The output block after point `t` is then, entry by entry, the network's value at batch
  row `t / 5` and encoder row `40 · (t % 5) + p`: the body's second matrix product over the tanh of the encoder
  projection of the tile plus that scratch plus the first bias, plus the second bias — the same sums, term by term,
  once each block entry is read as the array entry it is a copy of.
-/
import proofs.«143311_j16784732193240_1_alg».proof.Proof.Gen.KernelIdeal.Value
import proofs.«143311_j16784732193240_1_alg».proof.Proof.Spec
import proofs.«143311_j16784732193240_1_alg».proof.Proof.Coords
import proofs.«143311_j16784732193240_1_alg».proof.Proof.PerPoint
import proofs.«143311_j16784732193240_1_alg».proof.Proof.Pay
import proofs.«143311_j16784732193240_1_alg».proof.Proof.Blocks
import Idealize.ShloMosaic.Lib.Pipeline.Value
import Idealize.ShloMosaic.Lib.ValueIdx

noncomputable section

namespace Cert.Joint.KVal

open Idealize.ShloMosaic Idealize.ShloMosaic.TcCoe Idealize.ShloMosaic.ValueIdx Idealize.SL.Sem Cert.KernelIdeal Cert.KernelIdeal.Gen
open Cert.Joint

variable (m : (ℓ : Loc nD τ sig) → Buf (Elt Ideal) ℓ)

/-- The six argument arrays as launched. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)

/-- At a refilling point the scratch ends at the decoder projection of the point's batch row. -/
theorem scratch_fill (c : Dev nD) (t : Fin cfg0.N) (h0 : t.val % 5 = 0) (u : Fin 100) (h : Fin 1024) :
    ((outsAt0 m c t.val t.isLt).2 : Vec Ideal S100x1024 .f32) (ix2 u h) = decH (a1 m c) (a2 m c) (tb t) u h := by
  rw [PerPoint.scr_A m c t h0]
  refine (Pay.pay1_at (iblk m c 1 t) (iblk m c 3 t) u h).trans ?_
  unfold decH
  exact Finset.sum_congr rfl fun k _ =>
    congrArg₂ (fun x y : EReal => x * y) (Blocks.iblk1_at m c t u k) (Blocks.iblk3_at m c t k h)

/-- After EVERY point the scratch holds the decoder projection of the point's batch row: refilled at the row's first
    point, and the four points after it are of the same batch row and leave it alone. -/
theorem scratch_at (c : Dev nD) : ∀ (n : ℕ) (hn : n < cfg0.N) (u : Fin 100) (h : Fin 1024),
    ((outsAt0 m c n hn).2 : Vec Ideal S100x1024 .f32) (ix2 u h) = decH (a1 m c) (a2 m c) (tb ⟨n, hn⟩) u h := by
  intro n
  induction n with
  | zero => intro hn u h; exact scratch_fill m c ⟨0, hn⟩ rfl u h
  | succ n ih =>
    intro hn u h
    by_cases h0 : (n + 1) % 5 = 0
    · exact scratch_fill m c ⟨n + 1, hn⟩ h0 u h
    · refine (congrArg (fun X : Vec Ideal S100x1024 .f32 => X (ix2 u h)) (PerPoint.scr_B m c ⟨n + 1, hn⟩ h0)).trans ?_
      show ((outsAt0 m c n (Nat.lt_of_succ_lt hn)).2 : Vec Ideal S100x1024 .f32) (ix2 u h) = _
      rw [ih (Nat.lt_of_succ_lt hn) u h]
      have e : tb ⟨n, Nat.lt_of_succ_lt hn⟩ = tb ⟨n + 1, hn⟩ := Fin.ext (by show n / 5 = (n + 1) / 5; omega)
      rw [e]

/-- The output block after point `t`, at row `p` of the tile, is the network's value at batch row `t / 5`, encoder row
    `40 · (t % 5) + p`. -/
theorem block_at (c : Dev nD) (t : Fin cfg0.N) (p : Fin 40) (u : Fin 100) (o : Fin 512) :
    ((outsAt0 m c t.val t.isLt).1 : Vec Ideal S1x40x100x512 .f32) (ix4 0 p u o)
      = out (a0 m c) (a1 m c) (a2 m c) (a3 m c) (a4 m c) (a5 m c) (tb t) (trow t p) u o := by
  rw [PerPoint.out_any m c t]
  refine (Pay.pay2_at (iblk m c 0 t) (iblk m c 2 t) (outsAt0 m c t.val t.isLt).2 (iblk m c 4 t) (iblk m c 5 t) (iblk m c 6 t) p u o).trans ?_
  unfold out hid encH
  refine congrArg₂ (fun x y : EReal => x + y) (Finset.sum_congr rfl fun h _ => ?_) (Blocks.iblk6_at m c t o)
  refine congrArg₂ (fun x y : EReal => x * y) (congrArg Ideal.tanh ?_) (Blocks.iblk5_at m c t h o)
  refine congrArg₂ (fun x y : EReal => x + y) (congrArg₂ (fun x y : EReal => x + y) (Finset.sum_congr rfl fun k _ => ?_)
    (scratch_at m c t.val t.isLt u h)) (Blocks.iblk4_at m c t h)
  exact congrArg₂ (fun x y : EReal => x * y) (Blocks.iblk0_at m c t p k) (Blocks.iblk2_at m c t k h)

end Cert.Joint.KVal

end
-- ==== Proof.Final.lean ====
/-
  From blocks to the array: after the kernel's run the result array is the network's result array.

  Point `t` writes back the block at index (t / 5, t % 5, 0, 0) of extents (1, 40, 100, 512): array entry
  (b, r, u, o) lies in the block of point `5 b + r / 40`, at row `r % 40`; the twenty blocks tile the array, and each
  is, entry by entry, the network's value there.
-/
import proofs.«143311_j16784732193240_1_alg».proof.Proof.KVal

noncomputable section

namespace Cert.Joint.Final

open Idealize.ShloMosaic Idealize.ShloMosaic.TcCoe Idealize.ShloMosaic.ValueIdx Idealize.SL.Sem Cert.KernelIdeal Cert.KernelIdeal.Gen
open Idealize.ShloMosaic.Pipeline (Dat)
open Cert.Joint Cert.Joint.KVal

variable (m : (ℓ : Loc nD τ sig) → Buf (Elt Ideal) ℓ) (ρ : Dev nD → PrngReg)

/-- The network's result array over the six argument arrays as launched. -/
abbrev Gm (c : Dev nD) : Buf (Elt Ideal) ((c : Thread nD τ).loc main_v8) :=
  G (a0 m c) (a1 m c) (a2 m c) (a3 m c) (a4 m c) (a5 m c)

/-- The output window's block index at point `t` is (t / 5, t % 5, 0, 0): decided over the twenty points. -/
theorem idx7 : ∀ t : Fin cfg0.N, win0_7.index t (0 : Fin 4) = t.val / 5 ∧ win0_7.index t (1 : Fin 4) = t.val % 5
    ∧ win0_7.index t (2 : Fin 4) = 0 ∧ win0_7.index t (3 : Fin 4) = 0 :=
  (by decide +kernel : ∀ t : Fin grid0.N, win0_7.index t (0 : Fin 4) = t.val / 5 ∧ win0_7.index t (1 : Fin 4) = t.val % 5
    ∧ win0_7.index t (2 : Fin 4) = 0 ∧ win0_7.index t (3 : Fin 4) = 0)

/-- What point `t` writes back is block `t` of the network's result array. -/
theorem flushed_eq (c : Dev nD) (t : Fin cfg0.N) :
    (dats m 0 c).flushed 7 t = ((cfg0.win 7).blk t).view.read (Elt Ideal) (Gm m c) := by
  rw [Value.flushed7]
  obtain ⟨i0, i1, i2, i3⟩ := idx7 t
  funext j
  have h0 : (j 0).val < 1 := (j 0).isLt
  have h1 : (j 1).val < 40 := (j 1).isLt
  have h2 : (j 2).val < 100 := (j 2).isLt
  have h3 : (j 3).val < 512 := (j 3).isLt
  have e1 : (cfg0.win 7).xinj (grid0.coords t) j = ix4 (0 : Fin 1) ⟨(j 1).val, h1⟩ ⟨(j 2).val, h2⟩ ⟨(j 3).val, h3⟩ :=
    funext fun a => Fin.ext (by
      match a with
      | ⟨0, _⟩ => show (j 0).val = 0; omega
      | ⟨1, _⟩ => rfl
      | ⟨2, _⟩ => rfl
      | ⟨3, _⟩ => rfl)
  have e2 : ((cfg0.win 7).blk t).view.emb j
      = ix4 (tb t) (trow t ⟨(j 1).val, h1⟩) (⟨(j 2).val, h2⟩ : Fin 100) (⟨(j 3).val, h3⟩ : Fin 512) :=
    funext fun a => Fin.ext (by
      match a with
      | ⟨0, _⟩ => show win0_7.index t (0 : Fin 4) * 1 + 1 * (j 0).val = t.val / 5; omega
      | ⟨1, _⟩ => show win0_7.index t (1 : Fin 4) * 40 + 1 * (j 1).val = 40 * (t.val % 5) + (j 1).val; omega
      | ⟨2, _⟩ => show win0_7.index t (2 : Fin 4) * 100 + 1 * (j 2).val = (j 2).val; omega
      | ⟨3, _⟩ => show win0_7.index t (3 : Fin 4) * 512 + 1 * (j 3).val = (j 3).val; omega)
  rw [View.read_apply]
  show ((outsAt0 m c t.val t.isLt).1 : Vec Ideal S1x40x100x512 .f32) ((cfg0.win 7).xinj (grid0.coords t) j)
    = Gm m c (((cfg0.win 7).blk t).view.emb j)
  refine (congrArg ((outsAt0 m c t.val t.isLt).1 : Vec Ideal S1x40x100x512 .f32) e1).trans ?_
  refine (block_at m c t ⟨(j 1).val, h1⟩ ⟨(j 2).val, h2⟩ ⟨(j 3).val, h3⟩).trans ?_
  exact (congrArg (Gm m c) e2).symm

/-- An index of the result array is in point `t`'s block iff each coordinate is in the block's range on its axis. -/
theorem mem_blk7 (t : Fin cfg0.N) (i : S4x200x100x512.Idx) :
    i ∈ ((cfg0.win 7).blk t).view.set ↔ ∀ a : Fin 4, win0_7.index t a * S1x40x100x512.size a ≤ (i a).val
      ∧ (i a).val < win0_7.index t a * S1x40x100x512.size a + S1x40x100x512.size a := by
  show i ∈ ((View.whole main_v8).slice (win0_7.rect t)).set ↔ _
  rw [View.set_slice_whole, Rect.mem_set_unit]
  exact Iff.rfl

/-- Every index of the result array is in the block of the point of its batch row and encoder tile. -/
theorem cover7 (i : S4x200x100x512.Idx) :
    ∃ t : Fin cfg0.N, (cfg0.win 7).flush t = true ∧ i ∈ ((cfg0.win 7).blk t).view.set := by
  have h0 : (i 0).val < 4 := (i 0).isLt
  have h1 : (i 1).val < 200 := (i 1).isLt
  have h2 : (i 2).val < 100 := (i 2).isLt
  have h3 : (i 3).val < 512 := (i 3).isLt
  refine ⟨pointOf ⟨(i 0).val, h0⟩ ⟨(i 1).val, h1⟩, flush0_7 _, ?_⟩
  obtain ⟨i0, i1, i2, i3⟩ := idx7 (pointOf ⟨(i 0).val, h0⟩ ⟨(i 1).val, h1⟩)
  have hv : (pointOf ⟨(i 0).val, h0⟩ ⟨(i 1).val, h1⟩).val = 5 * (i 0).val + (i 1).val / 40 := rfl
  rw [mem_blk7]
  intro a
  match a with
  | ⟨0, _⟩ => show win0_7.index _ (0 : Fin 4) * 1 ≤ (i 0).val ∧ (i 0).val < win0_7.index _ (0 : Fin 4) * 1 + 1; omega
  | ⟨1, _⟩ => show win0_7.index _ (1 : Fin 4) * 40 ≤ (i 1).val ∧ (i 1).val < win0_7.index _ (1 : Fin 4) * 40 + 40; omega
  | ⟨2, _⟩ => show win0_7.index _ (2 : Fin 4) * 100 ≤ (i 2).val ∧ (i 2).val < win0_7.index _ (2 : Fin 4) * 100 + 100; omega
  | ⟨3, _⟩ => show win0_7.index _ (3 : Fin 4) * 512 ≤ (i 3).val ∧ (i 3).val < win0_7.index _ (3 : Fin 4) * 512 + 512; omega

/-- So after the run the result array is the network's result array. -/
theorem final7 (c : Dev nD) : (dats m 0 c).arrAt 7 cfg0.N = Gm m c :=
  (dats m 0 c).arrAt_eq_of_cover 7 (Gm m c) (fun t _ => flushed_eq m c t) cover7

/-- The kernel's run: it terminates with the result array at the network's value of the arguments, the arguments
    unchanged. -/
theorem run : θ_run defs (onTc (τ := τ) (main (F := Ideal))) ⟨m, fun _ => 0, ρ⟩ fun r => ∀ c : Dev nD,
      r.2.mem ((c : Thread nD τ).loc main_v8) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2⟩) (Value.run_blocks m ρ)

end Cert.Joint.Final

end
-- ==== Proof.lean ====
/-
  The joint network kernel against its jnp reference.

  Kernel: grid 4 × 5 over (batch row, encoder tile of 40 rows). At the first tile of a batch row the body fills a
  carried 100 × 1024 scratch with the decoder block through the decoder half of W1; at every point it forms the
  encoder tile through the encoder half of W1, adds the scratch (broadcast over the tile's rows) and b1, applies tanh,
  multiplies by W2ᵀ as one 4000 × 1024 by 1024 × 512 product, adds b2 and stores the (1, 40, 100, 512) block. The
  host code before the call only slices, transposes and narrows the weights. Reference: the same network by three
  einsums over the whole arrays.

  At the ideal instance narrowing to bf16 is the identity, a matrix product into a zero accumulator is the plain sum,
  and both programs' tanh is the one extended-real tanh; both sides add the encoder term, the decoder term and b1 in
  the same order. So both results are, entry by entry, the SAME expression (Proof/Spec.lean) and no algebraic law —
  hence no finiteness of the inputs — is needed: the precondition is never opened.

  The frames of the two kernel programs are the generated ones; the reference's frame is its generated run with the
  result dropped; the idealization rewrote nothing. The value claim: the kernel's run ends with the result array at
  the specification (Proof/Final.lean, over the generated blockwise value leg), the reference's generated run ends at
  its operations' term, which is the specification of the same arguments (Proof/RefG.lean).
-/
import proofs.«143311_j16784732193240_1_alg».proof.Defs
import proofs.«143311_j16784732193240_1_alg».proof.Proof.Gen.Kernel
import proofs.«143311_j16784732193240_1_alg».proof.Proof.Gen.Kernel.Skeleton
import proofs.«143311_j16784732193240_1_alg».proof.Proof.Gen.Kernel.Launch
import proofs.«143311_j16784732193240_1_alg».proof.Proof.Gen.Kernel.Points
import proofs.«143311_j16784732193240_1_alg».proof.Proof.Gen.Kernel.Frame
import proofs.«143311_j16784732193240_1_alg».proof.Proof.Gen.KernelIdeal
import proofs.«143311_j16784732193240_1_alg».proof.Proof.Gen.KernelIdeal.Skeleton
import proofs.«143311_j16784732193240_1_alg».proof.Proof.Gen.KernelIdeal.Launch
import proofs.«143311_j16784732193240_1_alg».proof.Proof.Gen.KernelIdeal.Points
import proofs.«143311_j16784732193240_1_alg».proof.Proof.Gen.KernelIdeal.Frame
import proofs.«143311_j16784732193240_1_alg».proof.Proof.Gen.ReferenceIdeal
import proofs.«143311_j16784732193240_1_alg».proof.Proof.Gen.Pre_finite_inputs
import proofs.«143311_j16784732193240_1_alg».proof.Proof.Gen.KernelIdeal.Value
import proofs.«143311_j16784732193240_1_alg».proof.Proof.Gen.ReferenceIdeal.Run
import proofs.«143311_j16784732193240_1_alg».proof.Proof.Gen.ReferenceIdeal.Read
import proofs.«143311_j16784732193240_1_alg».proof.Proof.RefG
import proofs.«143311_j16784732193240_1_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the specification's function of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Joint.Final.Gm m c, Cert.Joint.Final.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq (F := Ideal) _ _ _ _ _ _).trans ?_
  refine (Cert.Joint.Ref.ref_eq_G _ _ _ _ _ _).trans ?_
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
